-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32x4096 : Shape := ⟨2, ![32, 4096]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel

variable [Facts]

def fn {F : FTy → Type} [FloatOps F] (main_arg0 : FVec F S32x4096x512 .f32) (main_arg1 : IVec S32x4096 32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  main_v3
-- ==== Kernel.lean ====
abbrev S32x4096x512 : Shape := ⟨3, ![32, 4096, 512]⟩
abbrev S32x4096 : Shape := ⟨2, ![32, 4096]⟩
abbrev S1x4096 : Shape := ⟨2, ![1, 4096]⟩
abbrev S32x256x512 : Shape := ⟨3, ![32, 256, 512]⟩
abbrev S32x256 : Shape := ⟨2, ![32, 256]⟩
abbrev S1x256 : Shape := ⟨2, ![1, 256]⟩
abbrev S1x256x512 : Shape := ⟨3, ![1, 256, 512]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S32x4096x512, .f32⟩
  | .hbm, ⟨1, _⟩ => ⟨S32x4096, .i32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S32x256x512, .f32⟩
  | .local _ .vmem, ⟨1, _⟩ => ⟨S32x256x512, .f32⟩
  | .local _ .vmem, ⟨2, _⟩ => ⟨S32x256, .i32⟩
  | .local _ .vmem, ⟨3, _⟩ => ⟨S32x256, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x256x512_S1x256x512_0_0_0 : ∀ a, (![0, 0, 0] : Fin 3 → Nat) a + S1x256x512.size a ≤ S32x256x512.size a
  h_S1x256x512 : 0 < S1x256x512.numel
  inb_S32x256_S1x256_0_0 : ∀ a, (![0, 0] : Fin 2 → Nat) a + S1x256.size a ≤ S32x256.size a
  h_S1x256 : 0 < S1x256.numel
  inb_S32x256x512_S1x256x512_1_0_0 : ∀ a, (![1, 0, 0] : Fin 3 → Nat) a + S1x256x512.size a ≤ S32x256x512.size a
  reduces_S1x256x512_S1x256 : S1x256x512.Reduces [2] S1x256
  inb_S32x256_S1x256_1_0 : ∀ a, (![1, 0] : Fin 2 → Nat) a + S1x256.size a ≤ S32x256.size a
  natLt_1_32 : 1 < 32
  inb_S32x256x512_S1x256x512_2_0_0 : ∀ a, (![2, 0, 0] : Fin 3 → Nat) a + S1x256x512.size a ≤ S32x256x512.size a
  inb_S32x256_S1x256_2_0 : ∀ a, (![2, 0] : Fin 2 → Nat) a + S1x256.size a ≤ S32x256.size a
  inb_S32x256x512_S1x256x512_3_0_0 : ∀ a, (![3, 0, 0] : Fin 3 → Nat) a + S1x256x512.size a ≤ S32x256x512.size a
  inb_S32x256_S1x256_3_0 : ∀ a, (![3, 0] : Fin 2 → Nat) a + S1x256.size a ≤ S32x256.size a
  inb_S32x256x512_S1x256x512_4_0_0 : ∀ a, (![4, 0, 0] : Fin 3 → Nat) a + S1x256x512.size a ≤ S32x256x512.size a
  inb_S32x256_S1x256_4_0 : ∀ a, (![4, 0] : Fin 2 → Nat) a + S1x256.size a ≤ S32x256.size a
  inb_S32x256x512_S1x256x512_5_0_0 : ∀ a, (![5, 0, 0] : Fin 3 → Nat) a + S1x256x512.size a ≤ S32x256x512.size a
  inb_S32x256_S1x256_5_0 : ∀ a, (![5, 0] : Fin 2 → Nat) a + S1x256.size a ≤ S32x256.size a
  inb_S32x256x512_S1x256x512_6_0_0 : ∀ a, (![6, 0, 0] : Fin 3 → Nat) a + S1x256x512.size a ≤ S32x256x512.size a
  inb_S32x256_S1x256_6_0 : ∀ a, (![6, 0] : Fin 2 → Nat) a + S1x256.size a ≤ S32x256.size a
  inb_S32x256x512_S1x256x512_7_0_0 : ∀ a, (![7, 0, 0] : Fin 3 → Nat) a + S1x256x512.size a ≤ S32x256x512.size a
  inb_S32x256_S1x256_7_0 : ∀ a, (![7, 0] : Fin 2 → Nat) a + S1x256.size a ≤ S32x256.size a
  inb_S32x256x512_S1x256x512_8_0_0 : ∀ a, (![8, 0, 0] : Fin 3 → Nat) a + S1x256x512.size a ≤ S32x256x512.size a
  inb_S32x256_S1x256_8_0 : ∀ a, (![8, 0] : Fin 2 → Nat) a + S1x256.size a ≤ S32x256.size a
  inb_S32x256x512_S1x256x512_9_0_0 : ∀ a, (![9, 0, 0] : Fin 3 → Nat) a + S1x256x512.size a ≤ S32x256x512.size a
  inb_S32x256_S1x256_9_0 : ∀ a, (![9, 0] : Fin 2 → Nat) a + S1x256.size a ≤ S32x256.size a
  inb_S32x256x512_S1x256x512_10_0_0 : ∀ a, (![10, 0, 0] : Fin 3 → Nat) a + S1x256x512.size a ≤ S32x256x512.size a
  inb_S32x256_S1x256_10_0 : ∀ a, (![10, 0] : Fin 2 → Nat) a + S1x256.size a ≤ S32x256.size a
  inb_S32x256x512_S1x256x512_11_0_0 : ∀ a, (![11, 0, 0] : Fin 3 → Nat) a + S1x256x512.size a ≤ S32x256x512.size a
  inb_S32x256_S1x256_11_0 : ∀ a, (![11, 0] : Fin 2 → Nat) a + S1x256.size a ≤ S32x256.size a
  inb_S32x256x512_S1x256x512_12_0_0 : ∀ a, (![12, 0, 0] : Fin 3 → Nat) a + S1x256x512.size a ≤ S32x256x512.size a
  inb_S32x256_S1x256_12_0 : ∀ a, (![12, 0] : Fin 2 → Nat) a + S1x256.size a ≤ S32x256.size a
  inb_S32x256x512_S1x256x512_13_0_0 : ∀ a, (![13, 0, 0] : Fin 3 → Nat) a + S1x256x512.size a ≤ S32x256x512.size a
  inb_S32x256_S1x256_13_0 : ∀ a, (![13, 0] : Fin 2 → Nat) a + S1x256.size a ≤ S32x256.size a
  inb_S32x256x512_S1x256x512_14_0_0 : ∀ a, (![14, 0, 0] : Fin 3 → Nat) a + S1x256x512.size a ≤ S32x256x512.size a
  inb_S32x256_S1x256_14_0 : ∀ a, (![14, 0] : Fin 2 → Nat) a + S1x256.size a ≤ S32x256.size a
  inb_S32x256x512_S1x256x512_15_0_0 : ∀ a, (![15, 0, 0] : Fin 3 → Nat) a + S1x256x512.size a ≤ S32x256x512.size a
  inb_S32x256_S1x256_15_0 : ∀ a, (![15, 0] : Fin 2 → Nat) a + S1x256.size a ≤ S32x256.size a
  inb_S32x256x512_S1x256x512_16_0_0 : ∀ a, (![16, 0, 0] : Fin 3 → Nat) a + S1x256x512.size a ≤ S32x256x512.size a
  inb_S32x256_S1x256_16_0 : ∀ a, (![16, 0] : Fin 2 → Nat) a + S1x256.size a ≤ S32x256.size a
  inb_S32x256x512_S1x256x512_17_0_0 : ∀ a, (![17, 0, 0] : Fin 3 → Nat) a + S1x256x512.size a ≤ S32x256x512.size a
  inb_S32x256_S1x256_17_0 : ∀ a, (![17, 0] : Fin 2 → Nat) a + S1x256.size a ≤ S32x256.size a
  inb_S32x256x512_S1x256x512_18_0_0 : ∀ a, (![18, 0, 0] : Fin 3 → Nat) a + S1x256x512.size a ≤ S32x256x512.size a
  inb_S32x256_S1x256_18_0 : ∀ a, (![18, 0] : Fin 2 → Nat) a + S1x256.size a ≤ S32x256.size a
  inb_S32x256x512_S1x256x512_19_0_0 : ∀ a, (![19, 0, 0] : Fin 3 → Nat) a + S1x256x512.size a ≤ S32x256x512.size a
  inb_S32x256_S1x256_19_0 : ∀ a, (![19, 0] : Fin 2 → Nat) a + S1x256.size a ≤ S32x256.size a
  inb_S32x256x512_S1x256x512_20_0_0 : ∀ a, (![20, 0, 0] : Fin 3 → Nat) a + S1x256x512.size a ≤ S32x256x512.size a
  inb_S32x256_S1x256_20_0 : ∀ a, (![20, 0] : Fin 2 → Nat) a + S1x256.size a ≤ S32x256.size a
  inb_S32x256x512_S1x256x512_21_0_0 : ∀ a, (![21, 0, 0] : Fin 3 → Nat) a + S1x256x512.size a ≤ S32x256x512.size a
  inb_S32x256_S1x256_21_0 : ∀ a, (![21, 0] : Fin 2 → Nat) a + S1x256.size a ≤ S32x256.size a
  inb_S32x256x512_S1x256x512_22_0_0 : ∀ a, (![22, 0, 0] : Fin 3 → Nat) a + S1x256x512.size a ≤ S32x256x512.size a
  inb_S32x256_S1x256_22_0 : ∀ a, (![22, 0] : Fin 2 → Nat) a + S1x256.size a ≤ S32x256.size a
  inb_S32x256x512_S1x256x512_23_0_0 : ∀ a, (![23, 0, 0] : Fin 3 → Nat) a + S1x256x512.size a ≤ S32x256x512.size a
  inb_S32x256_S1x256_23_0 : ∀ a, (![23, 0] : Fin 2 → Nat) a + S1x256.size a ≤ S32x256.size a
  inb_S32x256x512_S1x256x512_24_0_0 : ∀ a, (![24, 0, 0] : Fin 3 → Nat) a + S1x256x512.size a ≤ S32x256x512.size a
  inb_S32x256_S1x256_24_0 : ∀ a, (![24, 0] : Fin 2 → Nat) a + S1x256.size a ≤ S32x256.size a
  inb_S32x256x512_S1x256x512_25_0_0 : ∀ a, (![25, 0, 0] : Fin 3 → Nat) a + S1x256x512.size a ≤ S32x256x512.size a
  inb_S32x256_S1x256_25_0 : ∀ a, (![25, 0] : Fin 2 → Nat) a + S1x256.size a ≤ S32x256.size a
  inb_S32x256x512_S1x256x512_26_0_0 : ∀ a, (![26, 0, 0] : Fin 3 → Nat) a + S1x256x512.size a ≤ S32x256x512.size a
  inb_S32x256_S1x256_26_0 : ∀ a, (![26, 0] : Fin 2 → Nat) a + S1x256.size a ≤ S32x256.size a
  inb_S32x256x512_S1x256x512_27_0_0 : ∀ a, (![27, 0, 0] : Fin 3 → Nat) a + S1x256x512.size a ≤ S32x256x512.size a
  inb_S32x256_S1x256_27_0 : ∀ a, (![27, 0] : Fin 2 → Nat) a + S1x256.size a ≤ S32x256.size a
  inb_S32x256x512_S1x256x512_28_0_0 : ∀ a, (![28, 0, 0] : Fin 3 → Nat) a + S1x256x512.size a ≤ S32x256x512.size a
  inb_S32x256_S1x256_28_0 : ∀ a, (![28, 0] : Fin 2 → Nat) a + S1x256.size a ≤ S32x256.size a
  inb_S32x256x512_S1x256x512_29_0_0 : ∀ a, (![29, 0, 0] : Fin 3 → Nat) a + S1x256x512.size a ≤ S32x256x512.size a
  inb_S32x256_S1x256_29_0 : ∀ a, (![29, 0] : Fin 2 → Nat) a + S1x256.size a ≤ S32x256.size a
  inb_S32x256x512_S1x256x512_30_0_0 : ∀ a, (![30, 0, 0] : Fin 3 → Nat) a + S1x256x512.size a ≤ S32x256x512.size a
  inb_S32x256_S1x256_30_0 : ∀ a, (![30, 0] : Fin 2 → Nat) a + S1x256.size a ≤ S32x256.size a
  inb_S32x256x512_S1x256x512_31_0_0 : ∀ a, (![31, 0, 0] : Fin 3 → Nat) a + S1x256x512.size a ≤ S32x256x512.size a
  inb_S32x256_S1x256_31_0 : ∀ a, (![31, 0] : Fin 2 → Nat) a + S1x256.size a ≤ S32x256.size a
  inb_S1x256_S1x256_0_0 : ∀ a, (![0, 0] : Fin 2 → Nat) a + S1x256.size a ≤ S1x256.size a
  reducesTo_S1x4096_S_d0_1 : S1x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S32x4096x512.size a
  hwx0_0 : ∀ i : grid0.Coords, EltTy.bits .f32 = 32 ∨ (Rect.block (s := S32x4096x512) S32x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x4096.size a
  hwx0_1 : ∀ i : grid0.Coords, EltTy.bits .i32 = 32 ∨ (Rect.block (s := S32x4096) S32x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)

variable [Facts₀]

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S32x4096 : Shape := ⟨2, ![32, 4096]⟩
abbrev S1x4096x512 : Shape := ⟨3, ![1, 4096, 512]⟩
abbrev S4096x512 : Shape := ⟨2, ![4096, 512]⟩
abbrev S31x4096x512 : Shape := ⟨3, ![31, 4096, 512]⟩
abbrev S_ : Shape := ⟨0, ![]⟩
abbrev S31x4096 : Shape := ⟨2, ![31, 4096]⟩
abbrev S1x4096 : Shape := ⟨2, ![1, 4096]⟩
abbrev S4096 : Shape := ⟨1, ![4096]⟩

abbrev nBuf : Space → Nat
  | .hbm => 98
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x4096, .i32⟩
  | .hbm, ⟨2, _⟩ => ⟨S1x4096x512, .f32⟩
  | .hbm, ⟨3, _⟩ => ⟨S4096x512, .f32⟩
  | .hbm, ⟨4, _⟩ => ⟨S31x4096x512, .f32⟩
  | .hbm, ⟨5, _⟩ => ⟨S1x4096x512, .f32⟩
  | .hbm, ⟨6, _⟩ => ⟨S31x4096x512, .f32⟩
  | .hbm, ⟨7, _⟩ => ⟨S31x4096x512, .f32⟩
  | .hbm, ⟨8, _⟩ => ⟨S31x4096x512, .f32⟩
  | .hbm, ⟨9, _⟩ => ⟨S_, .f32⟩
  | .hbm, ⟨10, _⟩ => ⟨S31x4096, .f32⟩
  | .hbm, ⟨11, _⟩ => ⟨S31x4096, .i32⟩
  | .hbm, ⟨12, _⟩ => ⟨S1x4096, .i32⟩
  | .hbm, ⟨13, _⟩ => ⟨S4096, .i32⟩
  | .hbm, ⟨14, _⟩ => ⟨S1x4096, .i32⟩
  | .hbm, ⟨15, _⟩ => ⟨S31x4096, .i32⟩
  | .hbm, ⟨16, _⟩ => ⟨S31x4096, .i1⟩
  | .hbm, ⟨17, _⟩ => ⟨S31x4096, .i1⟩
  | .hbm, ⟨18, _⟩ => ⟨S31x4096, .i32⟩
  | .hbm, ⟨19, _⟩ => ⟨S_, .i32⟩
  | .hbm, ⟨20, _⟩ => ⟨S4096, .i32⟩
  | .hbm, ⟨21, _⟩ => ⟨S4096, .f32⟩
  | .hbm, ⟨22, _⟩ => ⟨S31x4096, .i32⟩
  | .hbm, ⟨23, _⟩ => ⟨S_, .i32⟩
  | .hbm, ⟨24, _⟩ => ⟨S4096, .i32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S31x4096, .f32⟩
  | .hbm, ⟨29, _⟩ => ⟨S31x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .i1⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S31x4096, .f32⟩
  | .hbm, ⟨45, _⟩ => ⟨S31x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S31x4096, .f32⟩
  | .hbm, ⟨50, _⟩ => ⟨S31x4096, .f32⟩
  | .hbm, ⟨51, _⟩ => ⟨S_, .f32⟩
  | .hbm, ⟨52, _⟩ => ⟨S31x4096, .f32⟩
  | .hbm, ⟨53, _⟩ => ⟨S31x4096, .i1⟩
  | .hbm, ⟨54, _⟩ => ⟨S31x4096, .i1⟩
  | .hbm, ⟨55, _⟩ => ⟨S_, .f32⟩
  | .hbm, ⟨56, _⟩ => ⟨S_, .f32⟩
  | .hbm, ⟨57, _⟩ => ⟨S31x4096, .f32⟩
  | .hbm, ⟨58, _⟩ => ⟨S31x4096, .f32⟩
  | .hbm, ⟨59, _⟩ => ⟨S_, .f32⟩
  | .hbm, ⟨60, _⟩ => ⟨S4096, .f32⟩
  | .hbm, ⟨61, _⟩ => ⟨S31x4096, .i32⟩
  | .hbm, ⟨62, _⟩ => ⟨S_, .i32⟩
  | .hbm, ⟨63, _⟩ => ⟨S4096, .i32⟩
  | .hbm, ⟨64, _⟩ => ⟨S_, .f32⟩
  | .hbm, ⟨65, _⟩ => ⟨S4096, .f32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S4096, .i1⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S4096, .f32⟩
  | .hbm, ⟨88, _⟩ => ⟨S_, .f32⟩
  | .hbm, ⟨89, _⟩ => ⟨S_, .f32⟩
  | .hbm, ⟨90, _⟩ => ⟨S4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S_, .f32⟩
  | .hbm, ⟨97, _⟩ => ⟨S_, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩
abbrev main_v41 : Ref sig .tc := ⟨.hbm, 66, rfl⟩
abbrev main_c_13 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_14 : Ref sig .tc := ⟨.hbm, 72, rfl⟩
abbrev main_v46 : Ref sig .tc := ⟨.hbm, 73, rfl⟩
abbrev main_v47 : Ref sig .tc := ⟨.hbm, 74, rfl⟩
abbrev main_cst_15 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_16 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_17 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_18 : Ref sig .tc := ⟨.hbm, 88, rfl⟩
abbrev main_v58 : Ref sig .tc := ⟨.hbm, 89, rfl⟩
abbrev main_v59 : Ref sig .tc := ⟨.hbm, 90, rfl⟩
abbrev main_cst_19 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_20 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]

class Facts₀ : Prop where
  slices_S32x4096x512_S1x4096x512_0_0_0 : S32x4096x512.Slices ![0, 0, 0] S1x4096x512
  shapeCasts_S1x4096x512_S4096x512 : S1x4096x512.ShapeCasts S4096x512
  slices_S32x4096x512_S31x4096x512_1_0_0 : S32x4096x512.Slices ![1, 0, 0] S31x4096x512
  bcast_S4096x512_S1x4096x512_1_2 : S4096x512.BroadcastsInDim S1x4096x512 (![1, 2] : Fin 2 → Fin S1x4096x512.rank)
  bcast_S1x4096x512_S31x4096x512_0_1_2 : S1x4096x512.BroadcastsInDim S31x4096x512 (![0, 1, 2] : Fin 3 → Fin S31x4096x512.rank)
  reducesTo_S31x4096x512_S31x4096_d2 : S31x4096x512.ReducesTo [2] S31x4096
  h_S_ : 0 < S_.numel
  slices_S32x4096_S31x4096_1_0 : S32x4096.Slices ![1, 0] S31x4096
  slices_S32x4096_S1x4096_0_0 : S32x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S31x4096_0_1 : S1x4096.BroadcastsInDim S31x4096 (![0, 1] : Fin 2 → Fin S31x4096.rank)
  natLt_1_32 : 1 < 32
  reducesTo_S31x4096_S4096_d0 : S31x4096.ReducesTo [0] S4096
  bcast_S_S31x4096 : S_.BroadcastsInDim S31x4096 (![] : Fin 0 → Fin S31x4096.rank)
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.SampleFold.lean ====
/-
  One sample of the margin loss, as the kernel's body computes it.

  A sample is a column of the batch: 32 views of a 512-vector and 32 labels. View 0 is the
  anchor; `d k` is the squared distance from the anchor to view `k` and `s k` the bit
  "view `k` has the anchor's label". From these the body accumulates, over the views 1 … 31
  in order, the count, the sum and the maximum of the same-label distances; puts the margin
  `alpha` one above that maximum (1 when no view shares the label); and then accumulates the
  count of the other-label views, the sum of their distances below the margin (shifted by it)
  and the count of those. The three results per sample are the loss and the safety coefficient,
  each masked by the indicator "some view shares the label or lies under the margin", and the
  indicator itself.

  Every quantity is a left fold over the list of views, in the float operations of an arbitrary
  instance: this is the shape in which the body's straight-line code reads, so that code is this
  term by unfolding alone. What the folds ARE, at the extended reals, is said elsewhere.
-/
import Idealize.ShloMosaic.PureOps

noncomputable section

namespace Cert.Safeness

open Idealize.ShloMosaic

variable {F : FTy → Type} [FloatOps F]

/-- The compared views, in the order the accumulations run. -/
def views : List (Fin 32) :=
  [1, 2, 3, 4, 5, 6, 7, 8, 9, 10, 11, 12, 13, 14, 15, 16, 17, 18, 19, 20, 21, 22, 23, 24, 25, 26, 27, 28, 29, 30, 31]

def fzero : F .f32 := Scalar.ofBits .f32 0x00000000#32
def fninf : F .f32 := Scalar.ofBits .f32 0xFF800000#32
def fone : F .f32 := Scalar.ofBits .f32 0x3F800000#32
def f31 : F .f32 := Scalar.ofBits .f32 0x41F80000#32
def feps : F .f32 := Scalar.ofBits .f32 0x358637BD#32

/-- A bit as the float 0 or 1. -/
def cnt (b : BitVec 1) : F .f32 := FloatOps.sitofp .f32 (b.setWidth 32)

section
variable (d : Fin 32 → F .f32) (s : Fin 32 → BitVec 1)

/-- How many views share the anchor's label. -/
def nSame : F .f32 := views.foldl (fun a k => FloatOps.addf a (cnt (s k))) fzero
/-- The sum of their distances. -/
def sameSum : F .f32 := views.foldl (fun a k => FloatOps.addf a (Scalar.select (s k) (d k) fzero)) fzero
/-- The largest of their distances (−∞ when there is none). -/
def sameMax : F .f32 := views.foldl (fun a k => FloatOps.maximumf a (Scalar.select (s k) (d k) fninf)) fninf
/-- The margin: one above the largest same-label distance, or 1. -/
def alpha : F .f32 := Scalar.select (FloatOps.cmpf .ogt (nSame (F := F) s) fzero) (FloatOps.addf (sameMax d s) fone) fone
/-- View `k` has another label. -/
def other (k : Fin 32) : BitVec 1 := IntOp.xori (s k) 1#1
/-- How many views have another label. -/
def nDiff : F .f32 := views.foldl (fun a k => FloatOps.addf a (cnt (other s k))) fzero
/-- The distance to view `k`, measured from the margin. -/
def shifted (k : Fin 32) : F .f32 := FloatOps.subf (d k) (alpha d s)
/-- View `k` has another label and lies under the margin. -/
def under (k : Fin 32) : BitVec 1 := IntOp.andi (other s k) (FloatOps.cmpf .olt (shifted d s k) fzero)
/-- The sum of the shifted distances of the views under the margin. -/
def underSum : F .f32 := views.foldl (fun a k => FloatOps.addf a (Scalar.select (under d s k) (shifted d s k) fzero)) fzero
/-- How many views lie under the margin. -/
def nUnder : F .f32 := views.foldl (fun a k => FloatOps.addf a (cnt (under d s k))) fzero
/-- The sample counts: some view shares the label, or some lies under the margin. -/
def incl : F .f32 := cnt (IntOp.ori (FloatOps.cmpf .ogt (nSame (F := F) s) fzero) (FloatOps.cmpf .ogt (nUnder d s) fzero))
/-- The safety coefficient: the share of same-label views. -/
def coef : F .f32 := FloatOps.divf (nSame (F := F) s) f31
/-- The sample's loss. -/
def loss : F .f32 :=
  FloatOps.mulf (FloatOps.subf (FloatOps.divf (sameSum d s) (FloatOps.addf (nSame (F := F) s) feps))
      (FloatOps.divf (underSum d s) (FloatOps.addf (nDiff (F := F) s) feps)))
    (FloatOps.subf fone (coef (F := F) s))
def lossIncl : F .f32 := FloatOps.mulf (loss d s) (incl d s)
def coefIncl : F .f32 := FloatOps.mulf (coef (F := F) s) (incl d s)

end

end Cert.Safeness

end
-- ==== Proof.FoldLaws.lean ====
/-
  Laws for folding over the 31 compared views, and for counting bits.

  * A left fold of `+` over the views is the start value plus the sum over the views: addition of
    extended reals is commutative and associative, infinities included.
  * A left fold of a commutative, associative operation (`max`; 32-bit addition) over the views is the
    fold of that operation over the finite set of views, in any order.
  * Counting: adding bits one by one as the floats 0.0 / 1.0 gives the same number as adding them as
    32-bit integers and converting the total, as long as the integer has room — at most 31 ones are
    added here, so the sum never wraps, and the signed value of the total is the number of ones.
  * "The integer count is positive" (a signed comparison with 0) is "the float count is positive".
  * A bit read as an unsigned float is the bit widened to 32 bits and read as a signed float; the
    complement of a bit is its exclusive or with 1.
-/
import proofs.«154734_j91233695301874_2_alg».proof.Proof.SampleFold
import Idealize.ShloMosaic.PureOps.Ideal.Laws
import Idealize.ShloMosaic.PureOps.Reduce
import Mathlib.Algebra.BigOperators.Fin

noncomputable section

open scoped BigOperators

namespace Cert.Safeness

open Idealize.ShloMosaic

/-! ## Folds over the list of views -/

/-- The compared views are the successors of 0 … 30, in order. -/
theorem views_eq : views = (List.finRange 31).map Fin.succ := by decide

/-- A left fold of additions is the start plus the sum of the terms. -/
theorem foldl_add_eq {ι : Type} (f : ι → EReal) :
    ∀ (l : List ι) (z : EReal), l.foldl (fun a k => a + f k) z = z + (l.map f).sum
  | [], z => by simp
  | k :: l, z => by
      rw [List.foldl_cons, foldl_add_eq f l, List.map_cons, List.sum_cons, add_assoc]

/-- Over the views: the start plus the sum over the 31 compared views. -/
theorem views_foldl_add (f : Fin 32 → EReal) (z : EReal) :
    views.foldl (fun a k => a + f k) z = z + ∑ k : Fin 31, f k.succ := by
  rw [foldl_add_eq, views_eq, List.map_map, Fin.sum_univ_def]
  rfl

/-- A fold of a commutative, associative operation over all of `Fin 31` is the left fold over 0 … 30. -/
theorem fold_univ_eq_foldl {β : Type} (op : β → β → β) [Std.Commutative op] [Std.Associative op] (z : β) (f : Fin 31 → β) :
    (Finset.univ : Finset (Fin 31)).fold op z f = (List.finRange 31).foldl (fun a k => op a (f k)) z := by
  unfold Finset.fold
  rw [Fin.univ_val_map, List.ofFn_eq_map, Multiset.coe_fold_l, List.foldl_map]

/-- So a left fold over the views is that fold, at the successors. -/
theorem views_foldl_op {β : Type} (op : β → β → β) [Std.Commutative op] [Std.Associative op] (z : β) (g : Fin 32 → β) :
    views.foldl (fun a k => op a (g k)) z = (Finset.univ : Finset (Fin 31)).fold op z (fun k => g k.succ) := by
  rw [fold_univ_eq_foldl, views_eq, List.foldl_map]

/-! ## Bits and counts -/

/-- A bit widened to 32 bits and read as a signed integer is the bit's value. -/
theorem toInt_setWidth_bit : ∀ b : BitVec 1, ((b.setWidth 32).toInt : Int) = (b.toNat : Int) := by decide
/-- … and as a natural number too. -/
theorem toNat_setWidth_bit : ∀ b : BitVec 1, (b.setWidth 32).toNat = b.toNat := by decide
theorem toNat_bit_le : ∀ b : BitVec 1, b.toNat ≤ 1 := by decide
/-- The complement of a bit is its exclusive or with 1. -/
theorem xori_one : ∀ b : BitVec 1, IntOp.xori b 1#1 = ~~~b := by decide

/-- A bit as a float: 0.0 or 1.0, by either conversion. -/
theorem cnt_eq_uitofp (b : BitVec 1) : cnt (F := Ideal) b = FloatOps.uitofp (F := Ideal) .f32 b := by
  show (((b.setWidth 32).toInt : ℝ) : EReal) = ((b.toNat : ℝ) : EReal)
  rw [toInt_setWidth_bit b]; norm_cast

/-- Adding bits into a 32-bit integer that has room does not wrap: in step with a float count.
    `A` is the float count and `B` the integer count so far; they stay equal as numbers while fewer than
    2³¹ bits have been added. -/
theorem foldl_cnt {ι : Type} (b : ι → BitVec 1) :
    ∀ (l : List ι) (A : EReal) (B : BitVec 32), A = ((B.toNat : ℝ) : EReal) → B.toNat + l.length < 2 ^ 31 →
      l.foldl (fun a k => a + cnt (F := Ideal) (b k)) A
        = (((l.foldl (fun a k => IntOp.addi a ((b k).setWidth 32)) B).toInt : ℝ) : EReal)
  | [], A, B, hA, hB => by
      simp only [List.foldl_nil]
      have : B.toInt = (B.toNat : Int) := BitVec.toInt_eq_toNat_of_lt (by simp only [List.length_nil] at hB; omega)
      rw [hA, this]; norm_cast
  | k :: l, A, B, hA, hB => by
      simp only [List.foldl_cons]
      have hk := toNat_bit_le (b k)
      have hx : ((b k).setWidth 32).toNat = (b k).toNat := toNat_setWidth_bit (b k)
      have hB' : (IntOp.addi B ((b k).setWidth 32)).toNat = B.toNat + (b k).toNat := by
        show (B + (b k).setWidth 32).toNat = _
        rw [BitVec.toNat_add, hx]
        simp only [List.length_cons] at hB
        omega
      refine foldl_cnt b l _ _ ?_ ?_
      · rw [hB', hA]
        show ((B.toNat : ℝ) : EReal) + ((((b k).setWidth 32).toInt : ℝ) : EReal) = _
        rw [toInt_setWidth_bit (b k)]; norm_cast
      · rw [hB']; simp only [List.length_cons] at hB; omega

/-- The float count of the views with a given bit is the integer count, converted. -/
theorem views_count (b : Fin 32 → BitVec 1) :
    views.foldl (fun a k => FloatOps.addf a (cnt (F := Ideal) (b k))) (fzero (F := Ideal))
      = FloatOps.sitofp (F := Ideal) .f32
          ((Finset.univ : Finset (Fin 31)).fold (IntOp.addi (w := 32)) 0#32 (fun k => (b k.succ).setWidth 32)) := by
  rw [← views_foldl_op (IntOp.addi (w := 32)) 0#32 (fun k => (b k).setWidth 32)]
  refine foldl_cnt b views _ 0#32 ?_ (by decide)
  show Ideal.ofBits .f32 0x00000000#32 = _
  rw [Ideal.ofBits_zero_f32]; simp

/-- "The integer is positive" is "its float is positive". -/
theorem sgt_zero_eq (X : BitVec 32) :
    FloatOps.cmpf (F := Ideal) .ogt (FloatOps.sitofp (F := Ideal) .f32 X) (fzero (F := Ideal)) = IntOp.cmpi .sgt X 0#32 := by
  show BitVec.ofBool (decide (Ideal.ofBits .f32 0x00000000#32 < ((X.toInt : ℝ) : EReal))) = BitVec.ofBool ((0#32).slt X)
  rw [Ideal.ofBits_zero_f32]
  congr 1
  rw [BitVec.slt_eq_decide]
  simp only [BitVec.toInt_zero]
  congr 1
  rw [← EReal.coe_zero, EReal.coe_lt_coe_iff]
  norm_cast

end Cert.Safeness

end
-- ==== Proof.BlockTerm.lean ====
/-
  What the body leaves in each of its three output blocks, as one term per sample.

  A grid point holds a block of 256 samples: 32 views of 256 × 512 floats and 32 × 256 labels. The
  body loads view 0 (the anchor) once and each other view twice, one view at a time; for view `k`
  it forms, for all 256 samples at once, the squared distance to the anchor (`distV`: the lane sum
  of the squared difference of rows `0` and `k`) and the bit "same label as the anchor" (`sameV`),
  and folds them into its running counts, sums and maximum. All of that is pointwise in the sample,
  so at sample `y` of the block the stored value is the per-sample fold of SampleFold.lean over the
  31 distances and bits of that sample: the three theorems below say so, and hold by unfolding the
  body's straight-line code.
-/
import proofs.«154734_j91233695301874_2_alg».proof.Proof.Gen.KernelIdeal.Frame
import proofs.«154734_j91233695301874_2_alg».proof.Proof.SampleFold

set_option maxRecDepth 16384

noncomputable section

namespace Cert.Safeness

open Idealize.ShloMosaic Cert.KernelIdeal Cert.KernelIdeal.Gen

variable {F : FTy → Type} [FloatOps F]

/-- Row `k` of the 32 views fits in the block of embeddings. -/
theorem inbE (k : Fin 32) : ∀ a, (![k.val, 0, 0] : Fin 3 → Nat) a + S1x256x512.size a ≤ S32x256x512.size a := by
  intro a; have := k.isLt
  fin_cases a <;> simp [Shape.size] <;> omega

/-- Row `k` of the 32 views fits in the block of labels. -/
theorem inbT (k : Fin 32) : ∀ a, (![k.val, 0] : Fin 2 → Nat) a + S1x256.size a ≤ S32x256.size a := by
  intro a; have := k.isLt
  fin_cases a <;> simp [Shape.size] <;> omega

/-- View `k` of the block of embeddings: all samples, all lanes. -/
abbrev rowE (k : Fin 32) : Rect S32x256x512 := Rect.unit (s := S32x256x512) ![k.val, 0, 0] S1x256x512.size (inbE k)
/-- View `k` of the block of labels: all samples. -/
abbrev rowT (k : Fin 32) : Rect S32x256 := Rect.unit (s := S32x256) ![k.val, 0] S1x256.size (inbT k)

/-- The squared distance from the anchor to view `k`, for every sample of the block: the sum over
    the 512 lanes of the squared difference. -/
def distV (x0 : Vec F S32x256x512 .f32) (k : Fin 32) : FVec F S1x256 .f32 :=
  multiReduction .add [2] S1x256
    (mulf (subf (View.ld x0 (rowE 0)) (View.ld x0 (rowE k))) (subf (View.ld x0 (rowE 0)) (View.ld x0 (rowE k))))
    0x00000000#32 reduces_S1x256x512_S1x256 (.inl rfl) rfl

/-- View `k` carries the anchor's label, for every sample of the block. -/
def sameV (x1 : Vec F S32x256 .i32) (k : Fin 32) : IVec S1x256 1 :=
  cmpi .eq (View.ld x1 (rowT k)) (View.ld x1 (rowT 0))

/-- The first output block holds, at each sample, the masked loss of that sample. -/
theorem out0_2_eq (x0 : Vec F S32x256x512 .f32) (x1 : Vec F S32x256 .i32) :
    out0_2 x0 x1 = View.canon [⟨r0_64, fun y => lossIncl (F := F) (fun k => distV x0 k y) (fun k => sameV x1 k y)⟩] := rfl

/-- The second holds the masked safety coefficient. -/
theorem out0_3_eq (x0 : Vec F S32x256x512 .f32) (x1 : Vec F S32x256 .i32) :
    out0_3 x0 x1 = View.canon [⟨r0_64, fun y => coefIncl (F := F) (fun k => distV x0 k y) (fun k => sameV x1 k y)⟩] := rfl

/-- The third holds the mask. -/
theorem out0_4_eq (x0 : Vec F S32x256x512 .f32) (x1 : Vec F S32x256 .i32) :
    out0_4 x0 x1 = View.canon [⟨r0_64, fun y => incl (F := F) (fun k => distV x0 k y) (fun k => sameV x1 k y)⟩] := rfl

end Cert.Safeness

end
-- ==== Proof.BlockRead.lean ====
/-
  The three output blocks at one sample, from that sample's data alone.

  Sample `b` of a block depends only on column `b` of the block: the 32 × 512 floats
  `e k l = x0 (k, b, l)` and the 32 labels `tg k = x1 (k, b)`. The squared distance to view `k`
  is `∑ l, (e 0 l − e k l)²` (the lane sum of the squared difference of two loaded rows, a row
  load at (0, b, l) being the block at (k, b, l)), and the label bit is `tg k = tg 0`. With these
  the stored values are the per-sample folds of SampleFold.lean.
-/
import proofs.«154734_j91233695301874_2_alg».proof.Proof.BlockTerm
import Idealize.ShloMosaic.Lib.ValueIdx
import Idealize.ShloMosaic.Lib.Pipeline.Value
import Idealize.ShloMosaic.PureOps.Ideal.Laws

noncomputable section

namespace Cert.Safeness

open Idealize.ShloMosaic Idealize.ShloMosaic.ValueIdx Cert.KernelIdeal Cert.KernelIdeal.Gen

/-- The squared distance from the anchor (view 0) to view `k` of one sample. -/
def distS (e : Fin 32 → Fin 512 → EReal) (k : Fin 32) : EReal := ∑ l : Fin 512, (e 0 l - e k l) * (e 0 l - e k l)
/-- View `k` of one sample carries the anchor's label. -/
def sameS (tg : Fin 32 → BitVec 32) (k : Fin 32) : BitVec 1 := IntOp.cmpi .eq (tg k) (tg 0)

/-- A load of row `k` of the embeddings block, at sample `b` and lane `l`, is the block at (k, b, l). -/
theorem ld_rowE (x0 : Vec Ideal S32x256x512 .f32) (k : Fin 32) (b : Fin 256) (l : Fin 512) :
    View.ld (Val := Elt Ideal) (e' := .f32) x0 (rowE k) (ix3 (0 : Fin 1) b l) = x0 (ix3 k b l) := by
  show x0 ((rowE k).idx (ix3 0 b l)) = x0 (ix3 k b l)
  congr 1; funext a; apply Fin.ext
  match a with
  | ⟨0, _⟩ => show k.val + 1 * 0 = k.val; omega
  | ⟨1, _⟩ => show 0 + 1 * b.val = b.val; omega
  | ⟨2, _⟩ => show 0 + 1 * l.val = l.val; omega

/-- A load of row `k` of the labels block, at sample `b`, is the block at (k, b). -/
theorem ld_rowT (x1 : Vec Ideal S32x256 .i32) (k : Fin 32) (b : Fin 256) :
    View.ld (Val := Elt Ideal) (e' := .i32) x1 (rowT k) (ix2 (0 : Fin 1) b) = x1 (ix2 k b) := by
  show x1 ((rowT k).idx (ix2 0 b)) = x1 (ix2 k b)
  congr 1; funext a; apply Fin.ext
  match a with
  | ⟨0, _⟩ => show k.val + 1 * 0 = k.val; omega
  | ⟨1, _⟩ => show 0 + 1 * b.val = b.val; omega

/-- The lane sum at sample `b` runs over the lanes of that sample. -/
theorem lift_lane (b : Fin 256) (l : Fin 512) :
    (reduces_S1x256x512_S1x256).lift (ix2 (0 : Fin 1) b) l = ix3 (0 : Fin 1) b l := by
  funext a; apply Fin.ext
  match a with
  | ⟨0, _⟩ => rfl
  | ⟨1, _⟩ => rfl
  | ⟨2, _⟩ => rfl

/-- The block's distance to view `k` at sample `b` is that sample's squared distance. -/
theorem distV_apply (x0 : Vec Ideal S32x256x512 .f32) (k : Fin 32) (b : Fin 256) :
    distV (F := Ideal) x0 k (ix2 0 b) = distS (fun k l => x0 (ix3 k b l)) k := by
  unfold distV distS
  refine (Ideal.multiReduction_add_single _ 0x00000000#32 reduces_S1x256x512_S1x256 (.inl rfl) rfl (ix2 0 b)).trans ?_
  refine Finset.sum_congr rfl fun l _ => ?_
  rw [lift_lane b l]
  show (View.ld (Val := Elt Ideal) (e' := .f32) x0 (rowE 0) (ix3 (0 : Fin 1) b l) - View.ld (Val := Elt Ideal) (e' := .f32) x0 (rowE k) (ix3 (0 : Fin 1) b l))
      * (View.ld (Val := Elt Ideal) (e' := .f32) x0 (rowE 0) (ix3 (0 : Fin 1) b l) - View.ld (Val := Elt Ideal) (e' := .f32) x0 (rowE k) (ix3 (0 : Fin 1) b l)) = _
  rw [ld_rowE x0 0 b l, ld_rowE x0 k b l]

/-- The block's label bit for view `k` at sample `b` is that sample's. -/
theorem sameV_apply (x1 : Vec Ideal S32x256 .i32) (k : Fin 32) (b : Fin 256) :
    sameV (F := Ideal) x1 k (ix2 0 b) = sameS (fun k => x1 (ix2 k b)) k := by
  unfold sameV sameS
  show IntOp.cmpi .eq (View.ld (Val := Elt Ideal) (e' := .i32) x1 (rowT k) (ix2 (0 : Fin 1) b)) (View.ld (Val := Elt Ideal) (e' := .i32) x1 (rowT 0) (ix2 (0 : Fin 1) b)) = _
  rw [ld_rowT x1 k b, ld_rowT x1 0 b]

/-- The zero offsets of the whole-block store, as a function. -/
theorem zero_off : (![0, 0] : Fin 2 → Nat) = fun _ => 0 := by
  funext a; match a with | ⟨0, _⟩ => rfl | ⟨1, _⟩ => rfl

/-- The masked loss stored at sample `b`. -/
theorem out0_2_apply (x0 : Vec Ideal S32x256x512 .f32) (x1 : Vec Ideal S32x256 .i32) (b : Fin 256) :
    out0_2 (F := Ideal) x0 x1 (ix2 0 b)
      = lossIncl (F := Ideal) (distS fun k l => x0 (ix3 k b l)) (sameS fun k => x1 (ix2 k b)) := by
  rw [out0_2_eq, View.canon_unit_zero zero_off]
  show lossIncl (F := Ideal) (fun k => distV x0 k (ix2 0 b)) (fun k => sameV x1 k (ix2 0 b)) = _
  simp only [distV_apply, sameV_apply]

/-- The masked coefficient stored at sample `b`. -/
theorem out0_3_apply (x0 : Vec Ideal S32x256x512 .f32) (x1 : Vec Ideal S32x256 .i32) (b : Fin 256) :
    out0_3 (F := Ideal) x0 x1 (ix2 0 b)
      = coefIncl (F := Ideal) (distS fun k l => x0 (ix3 k b l)) (sameS fun k => x1 (ix2 k b)) := by
  rw [out0_3_eq, View.canon_unit_zero zero_off]
  show coefIncl (F := Ideal) (fun k => distV x0 k (ix2 0 b)) (fun k => sameV x1 k (ix2 0 b)) = _
  simp only [distV_apply, sameV_apply]

/-- The mask stored at sample `b`. -/
theorem out0_4_apply (x0 : Vec Ideal S32x256x512 .f32) (x1 : Vec Ideal S32x256 .i32) (b : Fin 256) :
    out0_4 (F := Ideal) x0 x1 (ix2 0 b)
      = incl (F := Ideal) (distS fun k l => x0 (ix3 k b l)) (sameS fun k => x1 (ix2 k b)) := by
  rw [out0_4_eq, View.canon_unit_zero zero_off]
  show incl (F := Ideal) (fun k => distV x0 k (ix2 0 b)) (fun k => sameV x1 k (ix2 0 b)) = _
  simp only [distV_apply, sameV_apply]

end Cert.Safeness

end
-- ==== Proof.RefSample.lean ====
/-
  One sample of the margin loss, as the reference program computes it.

  A sample is one column of the batch: 32 views of a 512-vector, `e k l`, and 32 integer labels,
  `tg k`. View 0 is the anchor; the compared views are 1 … 31, and `k : Fin 31` stands for the
  compared view `k.succ`. For each compared view the reference forms the squared distance to the
  anchor (a sum over the 512 coordinates, started from the zero constant) and the bit "same label
  as the anchor". Over the 31 compared views it then takes: the count of same-label views and
  the count of other-label views (integer sums of the bits widened to 32 bits, converted to a
  float afterwards); the maximum of the same-label distances, where an other-label view
  contributes −∞ and the maximum starts from −∞; the sum of the same-label distances. The margin
  is one above that maximum when the same-label count is positive, and 1 otherwise. A view is
  "under the margin" when it has another label and its distance minus the margin is negative;
  the reference sums those shifted distances and counts those views (an integer sum again).
  The sample is included when the same-label count is positive or some view is under the margin;
  the indicator is that bit read as 0 or 1. The safety coefficient is the same-label count over 31,
  and the loss is

      (same-label sum / (same-label count + ε) − under-margin sum / (other-label count + ε)) · (1 − coefficient).

  The program's two results are the sums over the samples of loss · indicator and of
  coefficient · indicator, each divided by the sum of the indicators.

  Everything here is stated at the extended reals, with the operations spelled as the reference
  program spells them: a float literal stays the word it is printed as, a comparison stays the
  one-bit comparison, a choice between two values stays a select on that bit, an integer sum
  stays a fold of 32-bit additions from zero, and the maximum stays a fold of `max` from −∞.
  This file only defines; it mentions no program.
-/
import Idealize.ShloMosaic.PureOps
import Idealize.ShloMosaic.PureOps.Ideal
import Idealize.ShloMosaic.PureOps.Reduce
import Idealize.ShloMosaic.Lib.ValueIdx

noncomputable section

open scoped BigOperators

namespace Cert.Safeness

open Idealize.ShloMosaic

/-- Sample `j` of the embeddings: view `k`, coordinate `l`. -/
def colE (x0 : (⟨3, ![32, 4096, 512]⟩ : Shape).Idx → EReal) (j : Fin 4096) : Fin 32 → Fin 512 → EReal :=
  fun k l => x0 (ValueIdx.ix3 k j l)

/-- Sample `j` of the labels: view `k`. -/
def colT (x1 : (⟨2, ![32, 4096]⟩ : Shape).Idx → BitVec 32) (j : Fin 4096) : Fin 32 → BitVec 32 :=
  fun k => x1 (ValueIdx.ix2 k j)

namespace Ref

section
variable (e : Fin 32 → Fin 512 → EReal) (tg : Fin 32 → BitVec 32)

/-- The squared distance from the anchor to compared view `k.succ`: the zero constant plus the sum of
    the squared coordinate differences. -/
def rDist (k : Fin 31) : EReal :=
  Ideal.ofBits .f32 0x00000000#32 + ∑ l : Fin 512, (e 0 l - e k.succ l) * (e 0 l - e k.succ l)

/-- Compared view `k.succ` has the anchor's label. -/
def rSame (k : Fin 31) : BitVec 1 := IntOp.cmpi .eq (tg k.succ) (tg 0)

/-- The number of same-label views, as the 32-bit integer sum of the widened bits. -/
def rNSameInt : BitVec 32 :=
  (Finset.univ : Finset (Fin 31)).fold (IntOp.addi (w := 32)) 0#32 (fun k => (rSame tg k).setWidth 32)

/-- The number of same-label views, as a float. -/
def rNSame : EReal := FloatOps.sitofp (F := Ideal) .f32 (rNSameInt tg)

/-- The number of other-label views, as the 32-bit integer sum of the widened complemented bits. -/
def rNDiffInt : BitVec 32 :=
  (Finset.univ : Finset (Fin 31)).fold (IntOp.addi (w := 32)) 0#32 (fun k => (~~~(rSame tg k)).setWidth 32)

/-- The number of other-label views, as a float. -/
def rNDiff : EReal := FloatOps.sitofp (F := Ideal) .f32 (rNDiffInt tg)

/-- The largest same-label distance: the maximum, started from −∞, of the distances with −∞ in
    place of an other-label view's. -/
def rSameMax : EReal :=
  (Finset.univ : Finset (Fin 31)).fold max (Ideal.ofBits .f32 0xFF800000#32)
    (fun k => Scalar.select (rSame tg k) (rDist e k) (Ideal.ofBits .f32 0xFF800000#32))

/-- "Some view shares the anchor's label": the float count compared with zero. -/
def rHasSame : BitVec 1 := FloatOps.cmpf (F := Ideal) .ogt (rNSame tg) (Ideal.ofBits .f32 0x00000000#32)

/-- The margin: one above the largest same-label distance, or 1 when no view shares the label. -/
def rAlpha : EReal :=
  Scalar.select (rHasSame tg) (rSameMax e tg + Ideal.ofBits .f32 0x3F800000#32) (Ideal.ofBits .f32 0x3F800000#32)

/-- The sum of the same-label distances (zero in place of an other-label view's), from the zero constant. -/
def rSameSum : EReal :=
  Ideal.ofBits .f32 0x00000000#32
    + ∑ k : Fin 31, Scalar.select (rSame tg k) (rDist e k) (Ideal.ofBits .f32 0x00000000#32)

/-- The distance to compared view `k.succ`, measured from the margin. -/
def rShifted (k : Fin 31) : EReal := rDist e k - rAlpha e tg

/-- Compared view `k.succ` has another label and lies under the margin. -/
def rUnder (k : Fin 31) : BitVec 1 :=
  IntOp.andi (~~~(rSame tg k)) (FloatOps.cmpf (F := Ideal) .olt (rShifted e tg k) (Ideal.ofBits .f32 0x00000000#32))

/-- The sum of the shifted distances of the views under the margin, from the zero constant. -/
def rUnderSum : EReal :=
  Ideal.ofBits .f32 0x00000000#32
    + ∑ k : Fin 31, Scalar.select (rUnder e tg k) (rShifted e tg k) (Ideal.ofBits .f32 0x00000000#32)

/-- The number of views under the margin, as the 32-bit integer sum of the widened bits. -/
def rNUnderInt : BitVec 32 :=
  (Finset.univ : Finset (Fin 31)).fold (IntOp.addi (w := 32)) 0#32 (fun k => (rUnder e tg k).setWidth 32)

/-- The sample's indicator: 1 when some view shares the label or lies under the margin, else 0. -/
def rIncl : EReal :=
  FloatOps.uitofp (F := Ideal) .f32 (IntOp.ori (rHasSame tg) (IntOp.cmpi .sgt (rNUnderInt e tg) 0#32))

/-- The safety coefficient: the same-label count over 31. -/
def rCoef : EReal := Ideal.div (rNSame tg) (Ideal.ofBits .f32 0x41F80000#32)

/-- The sample's loss. -/
def rLoss : EReal :=
  (Ideal.div (rSameSum e tg) (rNSame tg + Ideal.ofBits .f32 0x358637BD#32)
      - Ideal.div (rUnderSum e tg) (rNDiff tg + Ideal.ofBits .f32 0x358637BD#32))
    * (Ideal.ofBits .f32 0x3F800000#32 - rCoef tg)

/-- The sample's loss, masked by its indicator. -/
def rLossIncl : EReal := rLoss e tg * rIncl e tg

/-- The sample's safety coefficient, masked by its indicator. -/
def rCoefIncl : EReal := rCoef tg * rIncl e tg

end

end Ref

end Cert.Safeness
-- ==== Proof.Bridge.lean ====
/-
  One sample: what the kernel's body computes is what the reference computes.

  From one sample's data — the floats `e k l` and the labels `tg k` — both programs form the squared
  distances to the 31 compared views and the bits "same label as the anchor", and from these the
  same-label count, sum and maximum, the margin, the other-label count, the shifted distances under the
  margin with their sum and count, the indicator, the coefficient and the loss. The kernel accumulates
  view by view; the reference reduces over the views at once and counts in integers. Quantity by
  quantity the two agree by the laws of FoldLaws.lean: a left fold of `+` is the sum (the zero word
  being 0), a left fold of `max` is the fold over the set of views, a float count of bits is the integer
  count converted, and a positive integer count is a positive float count.
-/
import proofs.«154734_j91233695301874_2_alg».proof.Proof.FoldLaws
import proofs.«154734_j91233695301874_2_alg».proof.Proof.BlockRead
import proofs.«154734_j91233695301874_2_alg».proof.Proof.RefSample

noncomputable section

open scoped BigOperators

namespace Cert.Safeness

open Idealize.ShloMosaic

variable (e : Fin 32 → Fin 512 → EReal) (tg : Fin 32 → BitVec 32)

/-- The distance to view `k + 1`: the reference starts its sum from the zero word, which is 0. -/
theorem dist_eq (k : Fin 31) : distS e k.succ = Ref.rDist e k := by
  unfold distS Ref.rDist; rw [Ideal.ofBits_zero_f32, zero_add]

theorem same_eq (k : Fin 31) : sameS tg k.succ = Ref.rSame tg k := rfl

/-- The same-label count. -/
theorem nSame_eq : nSame (F := Ideal) (sameS tg) = Ref.rNSame tg := by
  unfold nSame Ref.rNSame Ref.rNSameInt
  exact views_count (sameS tg)

/-- The same-label sum. -/
theorem sameSum_eq : sameSum (F := Ideal) (distS e) (sameS tg) = Ref.rSameSum e tg := by
  unfold sameSum Ref.rSameSum
  show views.foldl (fun a k => a + Scalar.select (sameS tg k) (distS e k) (fzero (F := Ideal))) (fzero (F := Ideal)) = _
  rw [views_foldl_add]
  simp only [dist_eq, same_eq]; rfl

/-- The same-label maximum. -/
theorem sameMax_eq : sameMax (F := Ideal) (distS e) (sameS tg) = Ref.rSameMax e tg := by
  unfold sameMax Ref.rSameMax
  show views.foldl (fun a k => max a (Scalar.select (sameS tg k) (distS e k) (fninf (F := Ideal)))) (fninf (F := Ideal)) = _
  rw [views_foldl_op max]
  simp only [dist_eq, same_eq]; rfl

/-- The margin. -/
theorem alpha_eq : alpha (F := Ideal) (distS e) (sameS tg) = Ref.rAlpha e tg := by
  unfold alpha Ref.rAlpha Ref.rHasSame
  rw [nSame_eq, sameMax_eq]; rfl

theorem other_eq (k : Fin 31) : other (sameS tg) k.succ = ~~~(Ref.rSame tg k) := xori_one _

/-- The other-label count. -/
theorem nDiff_eq : nDiff (F := Ideal) (sameS tg) = Ref.rNDiff tg := by
  unfold nDiff Ref.rNDiff Ref.rNDiffInt
  rw [views_count (other (sameS tg))]
  simp only [other_eq]

theorem shifted_eq (k : Fin 31) : shifted (F := Ideal) (distS e) (sameS tg) k.succ = Ref.rShifted e tg k := by
  unfold shifted Ref.rShifted
  rw [alpha_eq, dist_eq]; rfl

theorem under_eq (k : Fin 31) : under (F := Ideal) (distS e) (sameS tg) k.succ = Ref.rUnder e tg k := by
  unfold under Ref.rUnder
  rw [shifted_eq, other_eq]; rfl

/-- The sum under the margin. -/
theorem underSum_eq : underSum (F := Ideal) (distS e) (sameS tg) = Ref.rUnderSum e tg := by
  unfold underSum Ref.rUnderSum
  show views.foldl (fun a k => a + Scalar.select (under (F := Ideal) (distS e) (sameS tg) k)
      (shifted (F := Ideal) (distS e) (sameS tg) k) (fzero (F := Ideal))) (fzero (F := Ideal)) = _
  rw [views_foldl_add]
  simp only [under_eq, shifted_eq]; rfl

/-- The count under the margin, as the reference's integer count converted. -/
theorem nUnder_eq : nUnder (F := Ideal) (distS e) (sameS tg) = FloatOps.sitofp (F := Ideal) .f32 (Ref.rNUnderInt e tg) := by
  unfold nUnder Ref.rNUnderInt
  rw [views_count (under (F := Ideal) (distS e) (sameS tg))]
  simp only [under_eq]

/-- The indicator. -/
theorem incl_eq : incl (F := Ideal) (distS e) (sameS tg) = Ref.rIncl e tg := by
  unfold incl Ref.rIncl Ref.rHasSame
  rw [cnt_eq_uitofp, nSame_eq, nUnder_eq, sgt_zero_eq]; rfl

/-- The coefficient. -/
theorem coef_eq : coef (F := Ideal) (sameS tg) = Ref.rCoef tg := by
  unfold coef Ref.rCoef
  rw [nSame_eq]; rfl

/-- The loss. -/
theorem loss_eq : loss (F := Ideal) (distS e) (sameS tg) = Ref.rLoss e tg := by
  unfold loss Ref.rLoss
  rw [sameSum_eq, nSame_eq, underSum_eq, nDiff_eq, coef_eq]; rfl

/-- The three per-sample results. -/
theorem lossIncl_eq : lossIncl (F := Ideal) (distS e) (sameS tg) = Ref.rLossIncl e tg := by
  unfold lossIncl Ref.rLossIncl
  rw [loss_eq, incl_eq]; rfl

theorem coefIncl_eq : coefIncl (F := Ideal) (distS e) (sameS tg) = Ref.rCoefIncl e tg := by
  unfold coefIncl Ref.rCoefIncl
  rw [coef_eq, incl_eq]; rfl

end Cert.Safeness

end
-- ==== Proof.KernelRunBlocks.lean ====
/-
  From what each grid point writes to the three result rows.

  The kernel runs over 16 grid points. Point `t` is handed the samples 256·t … 256·t + 255: a block of
  32 views × 256 samples × 512 features of the embeddings and a block of 32 views × 256 samples of the labels.
  It writes three blocks of 1 × 256 values, one value per sample, into three rows of 1 × 4096 values
  (the masked loss, the masked coefficient and the mask of every sample).

  Suppose that what the body leaves at sample `b` of an output block is a function `P` of that sample's column of
  the two input blocks alone — its 32 × 512 features and its 32 labels. Then:

  * sample `b` of the blocks at point `t` is sample 256·t + b of the arrays (a block's coordinate along an axis
    is the block's index times its extent plus the coordinate inside the block; here the block index is `t`
    along the samples and 0 along the other axes), so what point `t` writes back is block `t` of the row
    `j ↦ P (sample j of the batch)`;
  * every sample `j` lies in the block of exactly the point `j / 256`, so the 16 blocks cover the row;
  * hence after the last point the whole row is `j ↦ P (sample j of the batch)`.

  This is done once for the two input windows and then, in the same words, for each of the three output windows.
-/
import proofs.«154734_j91233695301874_2_alg».proof.Proof.Gen.KernelIdeal.Frame
import proofs.«154734_j91233695301874_2_alg».proof.Proof.RefSample
import Idealize.ShloMosaic.Lib.Pipeline.Value
import Idealize.ShloMosaic.Lib.ValueIdx

noncomputable section

namespace Cert.Safeness.Run

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- A quantity of one sample: a function of the sample's 32 × 512 features and its 32 labels. -/
abbrev PerSample : Type := (Fin 32 → Fin 512 → EReal) → (Fin 32 → BitVec 32) → EReal

/-- The row of 4096 per-sample values of the whole batch: entry (0, j) is `P` of sample `j`. -/
def row (P : PerSample) (x0 : S32x4096x512.Idx → EReal) (x1 : S32x4096.Idx → BitVec 32) : S1x4096.Idx → EReal :=
  fun i => P (colE x0 (i 1)) (colT x1 (i 1))

/-- A block of 256 per-sample values, known at every (0, b), is known at every index of the block: the first
    coordinate of an index of a 1 × 256 block can only be 0. -/
theorem block_at (out : Vec Ideal S32x256x512 .f32 → Vec Ideal S32x256 .i32 → Vec Ideal S1x256 .f32) (P : PerSample)
    (h : ∀ (x0 : Vec Ideal S32x256x512 .f32) (x1 : Vec Ideal S32x256 .i32) (b : Fin 256),
      out x0 x1 (ix2 0 b) = P (fun k l => x0 (ix3 k b l)) (fun k => x1 (ix2 k b)))
    (x0 : Vec Ideal S32x256x512 .f32) (x1 : Vec Ideal S32x256 .i32) (y : S1x256.Idx) :
    out x0 x1 y = P (fun k l => x0 (ix3 k (y 1) l)) (fun k => x1 (ix2 k (y 1))) := by
  have hy : y = ix2 (0 : Fin 1) (y 1) := by
    funext a
    match a with
    | ⟨0, _⟩ => exact Subsingleton.elim (α := Fin 1) _ _
    | ⟨1, _⟩ => rfl
  conv_lhs => rw [hy]
  exact h x0 x1 (y 1)

/-- Where each window's block sits at grid point `t`: block 0 along the views (and along the features), block `t`
    along the samples. Decided over the 16 points. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The features block at point `t` is the samples 256·t … 256·t + 255 of the embeddings. -/
theorem iblk0_apply (c : Dev nD) (t : Fin cfg0.N) (k : Fin 32) (b : Fin 256) (l : Fin 512) (j : Fin 4096)
    (hj : j.val = t.val * 256 + b.val) :
    (iblk m c 0 t : Vec Ideal S32x256x512 .f32) (ix3 k b l)
      = (m ((c : Thread nD τ).loc main_arg0) : S32x4096x512.Idx → EReal) (ix3 k j l) := by
  obtain ⟨e0, e1, e2, -⟩ := idx_facts t
  unfold iblk
  rw [View.read_apply]
  show V m c main_arg0 (((cfg0.win 0).blk t).view.emb (ix3 k b l)) = _
  rw [V_main_arg0]
  congr 1
  funext a
  apply Fin.ext
  match a with
  | ⟨0, _⟩ => show win0_0.index t (0 : Fin 3) * 32 + 1 * k.val = k.val; omega
  | ⟨1, _⟩ => show win0_0.index t (1 : Fin 3) * 256 + 1 * b.val = j.val; omega
  | ⟨2, _⟩ => show win0_0.index t (2 : Fin 3) * 512 + 1 * l.val = l.val; omega

/-- The labels block at point `t` is the samples 256·t … 256·t + 255 of the targets. -/
theorem iblk1_apply (c : Dev nD) (t : Fin cfg0.N) (k : Fin 32) (b : Fin 256) (j : Fin 4096)
    (hj : j.val = t.val * 256 + b.val) :
    (iblk m c 1 t : Vec Ideal S32x256 .i32) (ix2 k b)
      = (m ((c : Thread nD τ).loc main_arg1) : S32x4096.Idx → BitVec 32) (ix2 k j) := by
  obtain ⟨-, -, -, e0, e1, -⟩ := idx_facts t
  unfold iblk
  rw [View.read_apply]
  show V m c main_arg1 (((cfg0.win 1).blk t).view.emb (ix2 k b)) = _
  rw [V_main_arg1]
  congr 1
  funext a
  apply Fin.ext
  match a with
  | ⟨0, _⟩ => show win0_1.index t (0 : Fin 2) * 32 + 1 * k.val = k.val; omega
  | ⟨1, _⟩ => show win0_1.index t (1 : Fin 2) * 256 + 1 * b.val = j.val; omega

/-! ## Output window 2: the masked loss of every sample -/

/-- What point `t` writes back to window 2's array is block `t` of the row of per-sample values. -/
theorem flushed2_eq (P : PerSample)
    (h : ∀ (x0 : Vec Ideal S32x256x512 .f32) (x1 : Vec Ideal S32x256 .i32) (b : Fin 256),
      out0_2 (F := Ideal) x0 x1 (ix2 0 b) = P (fun k l => x0 (ix3 k b l)) (fun k => x1 (ix2 k b)))
    (c : Dev nD) (t : Fin cfg0.N) :
    (dats m 0 c).flushed 2 t = ((cfg0.win 2).blk t).view.read (Elt Ideal)
      (row P (m ((c : Thread nD τ).loc main_arg0)) (m ((c : Thread nD τ).loc main_arg1))) := by
  obtain ⟨-, -, -, -, -, e0, e1, -⟩ := idx_facts t
  show (cfg0.win 2).cut (grid0.coords t) ((dats m 0 c).after 2 t) = _
  rw [after0_2]
  funext y
  show out0_2 (F := Ideal) (iblk m c 0 t) (iblk m c 1 t) y
    = row P (m ((c : Thread nD τ).loc main_arg0)) (m ((c : Thread nD τ).loc main_arg1)) (((cfg0.win 2).blk t).view.emb y)
  refine (block_at (out0_2 (F := Ideal)) P h (iblk m c 0 t) (iblk m c 1 t) y).trans ?_
  have hj : ((((cfg0.win 2).blk t).view.emb y) 1).val = t.val * 256 + (y 1).val := by
    show win0_2.index t (1 : Fin 2) * 256 + 1 * (y 1).val = _
    omega
  unfold row
  refine congrArg₂ P (funext fun k => funext fun l => ?_) (funext fun k => ?_)
  · exact iblk0_apply m c t k (y 1) l _ hj
  · exact iblk1_apply m c t k (y 1) _ hj

/-- An index of the row is in point `t`'s block iff each coordinate is in the block's range on its axis. -/
theorem mem_blk2 (t : Fin cfg0.N) (i : S1x4096.Idx) :
    i ∈ ((cfg0.win 2).blk t).view.set ↔ ∀ a : Fin 2, win0_2.index t a * S1x256.size a ≤ (i a).val
      ∧ (i a).val < win0_2.index t a * S1x256.size a + S1x256.size a := by
  show i ∈ ((View.whole main_v0_0).slice (win0_2.rect t)).set ↔ _
  rw [View.set_slice_whole, Rect.mem_set_unit]
  exact Iff.rfl

/-- Every sample is in some point's block: sample `j` in that of point `j / 256`. -/
theorem cover2 (i : S1x4096.Idx) :
    ∃ t : Fin cfg0.N, (cfg0.win 2).flush t = true ∧ i ∈ ((cfg0.win 2).blk t).view.set := by
  have hi0 : (i 0).val < 1 := (i 0).isLt
  have hi1 : (i 1).val < 4096 := (i 1).isLt
  obtain ⟨t, ht⟩ : ∃ t : Fin cfg0.N, t.val = (i 1).val / 256 :=
    ⟨⟨(i 1).val / 256, by rw [show cfg0.N = 16 from N_0]; omega⟩, rfl⟩
  obtain ⟨-, -, -, -, -, e0, e1, -⟩ := idx_facts t
  refine ⟨t, flush0_2 t, ?_⟩
  rw [mem_blk2]
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 256 ≤ (i 1).val ∧ (i 1).val < win0_2.index t (1 : Fin 2) * 256 + 256
    omega

/-- So after the last point window 2's array is the row of per-sample values of the whole batch. -/
theorem final2 (P : PerSample)
    (h : ∀ (x0 : Vec Ideal S32x256x512 .f32) (x1 : Vec Ideal S32x256 .i32) (b : Fin 256),
      out0_2 (F := Ideal) x0 x1 (ix2 0 b) = P (fun k l => x0 (ix3 k b l)) (fun k => x1 (ix2 k b)))
    (c : Dev nD) :
    (dats m 0 c).arrAt 2 cfg0.N
      = row P (m ((c : Thread nD τ).loc main_arg0)) (m ((c : Thread nD τ).loc main_arg1)) :=
  (dats m 0 c).arrAt_eq_of_cover 2 _ (fun t _ => flushed2_eq m P h c t) cover2

/-! ## Output window 3: the masked coefficient of every sample -/

/-- What point `t` writes back to window 3's array is block `t` of the row of per-sample values. -/
theorem flushed3_eq (P : PerSample)
    (h : ∀ (x0 : Vec Ideal S32x256x512 .f32) (x1 : Vec Ideal S32x256 .i32) (b : Fin 256),
      out0_3 (F := Ideal) x0 x1 (ix2 0 b) = P (fun k l => x0 (ix3 k b l)) (fun k => x1 (ix2 k b)))
    (c : Dev nD) (t : Fin cfg0.N) :
    (dats m 0 c).flushed 3 t = ((cfg0.win 3).blk t).view.read (Elt Ideal)
      (row P (m ((c : Thread nD τ).loc main_arg0)) (m ((c : Thread nD τ).loc main_arg1))) := by
  obtain ⟨-, -, -, -, -, -, -, e0, e1, -⟩ := idx_facts t
  show (cfg0.win 3).cut (grid0.coords t) ((dats m 0 c).after 3 t) = _
  rw [after0_3]
  funext y
  show out0_3 (F := Ideal) (iblk m c 0 t) (iblk m c 1 t) y
    = row P (m ((c : Thread nD τ).loc main_arg0)) (m ((c : Thread nD τ).loc main_arg1)) (((cfg0.win 3).blk t).view.emb y)
  refine (block_at (out0_3 (F := Ideal)) P h (iblk m c 0 t) (iblk m c 1 t) y).trans ?_
  have hj : ((((cfg0.win 3).blk t).view.emb y) 1).val = t.val * 256 + (y 1).val := by
    show win0_3.index t (1 : Fin 2) * 256 + 1 * (y 1).val = _
    omega
  unfold row
  refine congrArg₂ P (funext fun k => funext fun l => ?_) (funext fun k => ?_)
  · exact iblk0_apply m c t k (y 1) l _ hj
  · exact iblk1_apply m c t k (y 1) _ hj

/-- An index of the row is in point `t`'s block iff each coordinate is in the block's range on its axis. -/
theorem mem_blk3 (t : Fin cfg0.N) (i : S1x4096.Idx) :
    i ∈ ((cfg0.win 3).blk t).view.set ↔ ∀ a : Fin 2, win0_3.index t a * S1x256.size a ≤ (i a).val
      ∧ (i a).val < win0_3.index t a * S1x256.size a + S1x256.size a := by
  show i ∈ ((View.whole main_v0_1).slice (win0_3.rect t)).set ↔ _
  rw [View.set_slice_whole, Rect.mem_set_unit]
  exact Iff.rfl

/-- Every sample is in some point's block: sample `j` in that of point `j / 256`. -/
theorem cover3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ : ∃ t : Fin cfg0.N, t.val = (i 1).val / 256 :=
    ⟨⟨(i 1).val / 256, by rw [show cfg0.N = 16 from N_0]; omega⟩, rfl⟩
  obtain ⟨-, -, -, -, -, -, -, e0, e1, -⟩ := idx_facts t
  refine ⟨t, flush0_3 t, ?_⟩
  rw [mem_blk3]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 256 ≤ (i 1).val ∧ (i 1).val < win0_3.index t (1 : Fin 2) * 256 + 256
    omega

/-- So after the last point window 3's array is the row of per-sample values of the whole batch. -/
theorem final3 (P : PerSample)
    (h : ∀ (x0 : Vec Ideal S32x256x512 .f32) (x1 : Vec Ideal S32x256 .i32) (b : Fin 256),
      out0_3 (F := Ideal) x0 x1 (ix2 0 b) = P (fun k l => x0 (ix3 k b l)) (fun k => x1 (ix2 k b)))
    (c : Dev nD) :
    (dats m 0 c).arrAt 3 cfg0.N
      = row P (m ((c : Thread nD τ).loc main_arg0)) (m ((c : Thread nD τ).loc main_arg1)) :=
  (dats m 0 c).arrAt_eq_of_cover 3 _ (fun t _ => flushed3_eq m P h c t) cover3

/-! ## Output window 4: the mask of every sample -/

/-- What point `t` writes back to window 4's array is block `t` of the row of per-sample values. -/
theorem flushed4_eq (P : PerSample)
    (h : ∀ (x0 : Vec Ideal S32x256x512 .f32) (x1 : Vec Ideal S32x256 .i32) (b : Fin 256),
      out0_4 (F := Ideal) x0 x1 (ix2 0 b) = P (fun k l => x0 (ix3 k b l)) (fun k => x1 (ix2 k b)))
    (c : Dev nD) (t : Fin cfg0.N) :
    (dats m 0 c).flushed 4 t = ((cfg0.win 4).blk t).view.read (Elt Ideal)
      (row P (m ((c : Thread nD τ).loc main_arg0)) (m ((c : Thread nD τ).loc main_arg1))) := by
  obtain ⟨-, -, -, -, -, -, -, -, -, e0, e1⟩ := idx_facts t
  show (cfg0.win 4).cut (grid0.coords t) ((dats m 0 c).after 4 t) = _
  rw [after0_4]
  funext y
  show out0_4 (F := Ideal) (iblk m c 0 t) (iblk m c 1 t) y
    = row P (m ((c : Thread nD τ).loc main_arg0)) (m ((c : Thread nD τ).loc main_arg1)) (((cfg0.win 4).blk t).view.emb y)
  refine (block_at (out0_4 (F := Ideal)) P h (iblk m c 0 t) (iblk m c 1 t) y).trans ?_
  have hj : ((((cfg0.win 4).blk t).view.emb y) 1).val = t.val * 256 + (y 1).val := by
    show win0_4.index t (1 : Fin 2) * 256 + 1 * (y 1).val = _
    omega
  unfold row
  refine congrArg₂ P (funext fun k => funext fun l => ?_) (funext fun k => ?_)
  · exact iblk0_apply m c t k (y 1) l _ hj
  · exact iblk1_apply m c t k (y 1) _ hj

/-- An index of the row is in point `t`'s block iff each coordinate is in the block's range on its axis. -/
theorem mem_blk4 (t : Fin cfg0.N) (i : S1x4096.Idx) :
    i ∈ ((cfg0.win 4).blk t).view.set ↔ ∀ a : Fin 2, win0_4.index t a * S1x256.size a ≤ (i a).val
      ∧ (i a).val < win0_4.index t a * S1x256.size a + S1x256.size a := by
  show i ∈ ((View.whole main_v0_2).slice (win0_4.rect t)).set ↔ _
  rw [View.set_slice_whole, Rect.mem_set_unit]
  exact Iff.rfl

/-- Every sample is in some point's block: sample `j` in that of point `j / 256`. -/
theorem cover4 (i : S1x4096.Idx) :
    ∃ t : Fin cfg0.N, (cfg0.win 4).flush t = true ∧ i ∈ ((cfg0.win 4).blk t).view.set := by
  have hi0 : (i 0).val < 1 := (i 0).isLt
  have hi1 : (i 1).val < 4096 := (i 1).isLt
  obtain ⟨t, ht⟩ : ∃ t : Fin cfg0.N, t.val = (i 1).val / 256 :=
    ⟨⟨(i 1).val / 256, by rw [show cfg0.N = 16 from N_0]; omega⟩, rfl⟩
  obtain ⟨-, -, -, -, -, -, -, -, -, e0, e1⟩ := idx_facts t
  refine ⟨t, flush0_4 t, ?_⟩
  rw [mem_blk4]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 256 ≤ (i 1).val ∧ (i 1).val < win0_4.index t (1 : Fin 2) * 256 + 256
    omega

/-- So after the last point window 4's array is the row of per-sample values of the whole batch. -/
theorem final4 (P : PerSample)
    (h : ∀ (x0 : Vec Ideal S32x256x512 .f32) (x1 : Vec Ideal S32x256 .i32) (b : Fin 256),
      out0_4 (F := Ideal) x0 x1 (ix2 0 b) = P (fun k l => x0 (ix3 k b l)) (fun k => x1 (ix2 k b)))
    (c : Dev nD) :
    (dats m 0 c).arrAt 4 cfg0.N
      = row P (m ((c : Thread nD τ).loc main_arg0)) (m ((c : Thread nD τ).loc main_arg1)) :=
  (dats m 0 c).arrAt_eq_of_cover 4 _ (fun t _ => flushed4_eq m P h c t) cover4

end Cert.Safeness.Run

end
-- ==== Proof.KernelRun.lean ====
/-
  The kernel's run, from the three result rows to the two result scalars.

  After its one region the program sums each of the three rows of 4096 per-sample values — the masked losses, the
  masked coefficients and the masks — over both of the row's axes into a scalar, each sum started from the zero
  constant, and divides the first two sums by the third. At the extended reals a sum over both axes of a
  1 × 4096 row is the starting value plus the sum of its 4096 entries, and entry (0, j) of a row is the per-sample
  value of sample `j`; so each scalar is

      (zero + ∑ over the samples j of P (sample j)) / (zero + ∑ over the samples j of P₄ (sample j)),

  the quotient being the extended reals' division of the ideal instance. The lines after the region start from the
  buffers as the region left them: each result row at what the 16 grid points wrote, every other buffer untouched.
  The two argument arrays are only read — staged block by block, never written back — so they end as they began.
-/
import proofs.«154734_j91233695301874_2_alg».proof.Proof.KernelRunBlocks
import Idealize.ShloMosaic.Lib.StableHlo.Run
import Idealize.ShloMosaic.PureOps.Ideal.Laws

noncomputable section

namespace Cert.Safeness.Run

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.StableHlo
open scoped BigOperators

variable (m : (ℓ : Loc nD τ sig) → Buf (Elt Ideal) ℓ) (ρ : Dev nD → PrngReg)

/-- The sum of a row's entries is the sum over the samples: the row's first axis has one coordinate. -/
theorem sum_row (P : PerSample) (x0 : S32x4096x512.Idx → EReal) (x1 : S32x4096.Idx → BitVec 32) :
    ∑ i : S1x4096.Idx, row P x0 x1 i = ∑ j : Fin 4096, P (colE x0 j) (colT x1 j) := by
  rw [sum_idx2, Fin.sum_univ_one]
  exact Finset.sum_congr rfl fun b _ => rfl

/-- The program's sum of a row over both axes, started from the zero constant: that constant's value plus the sum
    of the row's entries. -/
theorem total (x : S1x4096.Idx → EReal) (i : S_.Idx) :
    Host.reduceAdd (F := Ideal) (x : (⟨S1x4096, .f32⟩ : BufTy).Contents (Elt Ideal)) (constant S_ .f32 0x00000000#32)
        reducesTo_S1x4096_S_d0_1 h_S_ i
      = Ideal.ofBits .f32 0x00000000#32 + ∑ j : S1x4096.Idx, x j := by
  simp only [Host.reduceAdd, Ideal.hostReduceAdd_def]
  exact Ideal.hostReduceAdd_total reducesTo_S1x4096_S_d0_1 (fun b => b.elim0) x _ i

/-- Among the buffers the later lines start from, the row of the masked losses is what the region left there. -/
theorem exit2 (P : PerSample) (h : ∀ (x0 : Vec Ideal S32x256x512 .f32) (x1 : Vec Ideal S32x256 .i32) (b : Fin 256),
      out0_2 (F := Ideal) x0 x1 (ix2 0 b) = P (fun k l => x0 (ix3 k b l)) (fun k => x1 (ix2 k b))) (c : Dev nD) :
    Pipeline.withArrays (cfgs 0).spec c (V0 m c) (fun w => (dats m 0 c).arrAt w (cfgs 0).N) (Proc.devRef .tc main_v0_0)
      = row P (m ((c.tc : Thread nD τ).loc main_arg0)) (m ((c.tc : Thread nD τ).loc main_arg1)) :=
  (Pipeline.withArrays_arr spec0 launch0.win.arr_inj c _ _ 2).trans (final2 m P h c)

/-- Among the buffers the later lines start from, the row of the masked coefficients is what the region left there. -/
theorem exit3 (P : PerSample) (h : ∀ (x0 : Vec Ideal S32x256x512 .f32) (x1 : Vec Ideal S32x256 .i32) (b : Fin 256),
      out0_3 (F := Ideal) x0 x1 (ix2 0 b) = P (fun k l => x0 (ix3 k b l)) (fun k => x1 (ix2 k b))) (c : Dev nD) :
    Pipeline.withArrays (cfgs 0).spec c (V0 m c) (fun w => (dats m 0 c).arrAt w (cfgs 0).N) (Proc.devRef .tc main_v0_1)
      = row P (m ((c.tc : Thread nD τ).loc main_arg0)) (m ((c.tc : Thread nD τ).loc main_arg1)) :=
  (Pipeline.withArrays_arr spec0 launch0.win.arr_inj c _ _ 3).trans (final3 m P h c)

/-- Among the buffers the later lines start from, the row of the masks is what the region left there. -/
theorem exit4 (P : PerSample) (h : ∀ (x0 : Vec Ideal S32x256x512 .f32) (x1 : Vec Ideal S32x256 .i32) (b : Fin 256),
      out0_4 (F := Ideal) x0 x1 (ix2 0 b) = P (fun k l => x0 (ix3 k b l)) (fun k => x1 (ix2 k b))) (c : Dev nD) :
    Pipeline.withArrays (cfgs 0).spec c (V0 m c) (fun w => (dats m 0 c).arrAt w (cfgs 0).N) (Proc.devRef .tc main_v0_2)
      = row P (m ((c.tc : Thread nD τ).loc main_arg0)) (m ((c.tc : Thread nD τ).loc main_arg1)) :=
  (Pipeline.withArrays_arr spec0 launch0.win.arr_inj c _ _ 4).trans (final4 m P h c)

/-- The first result after the later lines: the summed masked losses over the summed masks. -/
theorem tail_v3 (P2 P4 : PerSample) (h2 : ∀ (x0 : Vec Ideal S32x256x512 .f32) (x1 : Vec Ideal S32x256 .i32) (b : Fin 256),
      out0_2 (F := Ideal) x0 x1 (ix2 0 b) = P2 (fun k l => x0 (ix3 k b l)) (fun k => x1 (ix2 k b))) (h4 : ∀ (x0 : Vec Ideal S32x256x512 .f32) (x1 : Vec Ideal S32x256 .i32) (b : Fin 256),
      out0_4 (F := Ideal) x0 x1 (ix2 0 b) = P4 (fun k l => x0 (ix3 k b l)) (fun k => x1 (ix2 k b))) (c : Dev nD) :
    Pipeline.afterTail₀ cfgs (dats m) 0 (V0 m) [hostOps1] c main_v3
      = (fun _ => Ideal.div (Ideal.ofBits .f32 0x00000000#32 + ∑ j : Fin 4096, P2 (colE (m ((c.tc : Thread nD τ).loc main_arg0)) j) (colT (m ((c.tc : Thread nD τ).loc main_arg1)) j)) (Ideal.ofBits .f32 0x00000000#32 + ∑ j : Fin 4096, P4 (colE (m ((c.tc : Thread nD τ).loc main_arg0)) j) (colT (m ((c.tc : Thread nD τ).loc main_arg1)) j)) : S_.Idx → EReal) := by
  unfold Pipeline.afterTail₀
  show StableHlo.after (hostOps1 (F := Ideal)) _ (Proc.devRef .tc main_v3) = _
  after_results
  rw [exit2 m P2 h2 c, exit4 m P4 h4 c]
  funext i
  show Ideal.div (Host.reduceAdd (F := Ideal) _ _ reducesTo_S1x4096_S_d0_1 h_S_ i) (Host.reduceAdd (F := Ideal) _ _ reducesTo_S1x4096_S_d0_1 h_S_ i) = _
  rw [total, total, sum_row, sum_row]

/-- The second result after the later lines: the summed masked coefficients over the summed masks. -/
theorem tail_v5 (P3 P4 : PerSample) (h3 : ∀ (x0 : Vec Ideal S32x256x512 .f32) (x1 : Vec Ideal S32x256 .i32) (b : Fin 256),
      out0_3 (F := Ideal) x0 x1 (ix2 0 b) = P3 (fun k l => x0 (ix3 k b l)) (fun k => x1 (ix2 k b))) (h4 : ∀ (x0 : Vec Ideal S32x256x512 .f32) (x1 : Vec Ideal S32x256 .i32) (b : Fin 256),
      out0_4 (F := Ideal) x0 x1 (ix2 0 b) = P4 (fun k l => x0 (ix3 k b l)) (fun k => x1 (ix2 k b))) (c : Dev nD) :
    Pipeline.afterTail₀ cfgs (dats m) 0 (V0 m) [hostOps1] c main_v5
      = (fun _ => Ideal.div (Ideal.ofBits .f32 0x00000000#32 + ∑ j : Fin 4096, P3 (colE (m ((c.tc : Thread nD τ).loc main_arg0)) j) (colT (m ((c.tc : Thread nD τ).loc main_arg1)) j)) (Ideal.ofBits .f32 0x00000000#32 + ∑ j : Fin 4096, P4 (colE (m ((c.tc : Thread nD τ).loc main_arg0)) j) (colT (m ((c.tc : Thread nD τ).loc main_arg1)) j)) : S_.Idx → EReal) := by
  unfold Pipeline.afterTail₀
  show StableHlo.after (hostOps1 (F := Ideal)) _ (Proc.devRef .tc main_v5) = _
  after_results
  rw [exit3 m P3 h3 c, exit4 m P4 h4 c]
  funext i
  show Ideal.div (Host.reduceAdd (F := Ideal) _ _ reducesTo_S1x4096_S_d0_1 h_S_ i) (Host.reduceAdd (F := Ideal) _ _ reducesTo_S1x4096_S_d0_1 h_S_ i) = _
  rw [total, total, sum_row, sum_row]

/-- THE KERNEL'S RUN. If the three output blocks at sample `b` of a block are `P2`, `P3`, `P4` of that sample's
    column of the two input blocks, then the program runs to the end, its two results are the sums over the samples of
    `P2` and of `P3` — each started from the zero constant — divided by that of `P4`, and the two argument arrays are
    unchanged. -/
theorem kernel_run (P2 P3 P4 : (Fin 32 → Fin 512 → EReal) → (Fin 32 → BitVec 32) → EReal)
    (h2 : ∀ (x0 : Vec Ideal S32x256x512 .f32) (x1 : Vec Ideal S32x256 .i32) (b : Fin 256),
      out0_2 (F := Ideal) x0 x1 (ix2 0 b) = P2 (fun k l => x0 (ix3 k b l)) (fun k => x1 (ix2 k b)))
    (h3 : ∀ (x0 : Vec Ideal S32x256x512 .f32) (x1 : Vec Ideal S32x256 .i32) (b : Fin 256),
      out0_3 (F := Ideal) x0 x1 (ix2 0 b) = P3 (fun k l => x0 (ix3 k b l)) (fun k => x1 (ix2 k b)))
    (h4 : ∀ (x0 : Vec Ideal S32x256x512 .f32) (x1 : Vec Ideal S32x256 .i32) (b : Fin 256),
      out0_4 (F := Ideal) x0 x1 (ix2 0 b) = P4 (fun k l => x0 (ix3 k b l)) (fun k => x1 (ix2 k b)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = (fun _ => Ideal.div (Ideal.ofBits .f32 0x00000000#32 + ∑ j : Fin 4096, P2 (colE (m ((c.tc : Thread nD τ).loc main_arg0)) j) (colT (m ((c.tc : Thread nD τ).loc main_arg1)) j)) (Ideal.ofBits .f32 0x00000000#32 + ∑ j : Fin 4096, P4 (colE (m ((c.tc : Thread nD τ).loc main_arg0)) j) (colT (m ((c.tc : Thread nD τ).loc main_arg1)) j)))
      ∧ r.2.mem ((c.tc : Thread nD τ).loc main_v5) = (fun _ => Ideal.div (Ideal.ofBits .f32 0x00000000#32 + ∑ j : Fin 4096, P3 (colE (m ((c.tc : Thread nD τ).loc main_arg0)) j) (colT (m ((c.tc : Thread nD τ).loc main_arg1)) j)) (Ideal.ofBits .f32 0x00000000#32 + ∑ j : Fin 4096, P4 (colE (m ((c.tc : Thread nD τ).loc main_arg0)) j) (colT (m ((c.tc : Thread nD τ).loc main_arg1)) j)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 rfl (by decide))).trans (tail_v3 m P2 P4 h2 h4 c),
     ((h c).2 main_v5 (Pipeline.mem_restRefs_of main_v5 rfl (by decide))).trans (tail_v5 m P3 P4 h3 h4 c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Safeness.Run

end
-- ==== Proof.RefReadViews.lean ====
/-
  The reference program's per-view stages, read at one sample and one compared view.

  The reference slices the anchor (view 0) and the 31 compared views out of the embeddings,
  brings the anchor to the compared views' shape by a reshape and two broadcasts, subtracts,
  squares, and sums over the 512 coordinates; likewise it slices the anchor's label and the
  compared views' labels out of the label array, broadcasts the anchor's, and compares. Read at
  sample `j` and compared view `k.succ` all of that layout work disappears: the broadcast anchor
  element is the embedding at (0, j, l), the compared element the embedding at (k+1, j, l), and the
  two labels those at (k+1, j) and (0, j). So the distance stage at (k, j) is the squared distance
  of the sample's own column, and the comparison stage at (k, j) the same-label bit of the
  sample's own labels, both exactly as the per-sample functions spell them.

  Also here, because every later stage needs it: a reduction over the 31 compared views (the
  leading axis of a 31 × 4096 array) with a commutative and associative body, read at sample `j`,
  is the fold of that body over `k : Fin 31` of the operand at (k, j), from the initial value.
-/
import proofs.«154734_j91233695301874_2_alg».proof.Proof.RefReadP
import proofs.«154734_j91233695301874_2_alg».proof.Proof.RefSample
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Safeness.Ref

open Cert.ReferenceIdeal Cert.ReferenceIdeal.Gen Cert.ReferenceIdeal.ReadP Idealize.ShloMosaic Idealize.ShloMosaic.ValueIdx

section
variable (x0 : (⟨S32x4096x512, .f32⟩ : BufTy).Contents (Elt Ideal)) (x1 : (⟨S32x4096, .i32⟩ : BufTy).Contents (Elt Ideal))

/-- The anchor, sliced, reshaped and broadcast over the compared views, at (k, j, l) is the embedding at (0, j, l). -/
theorem anchor_at (j : Fin 4096) (k : Fin 31) (l : Fin 512) :
    val_main_v4 (F := Ideal) x0 (ix3 k j l) = colE x0 j 0 l := by
  rw [val_main_v4_apply, val_main_v3_apply, val_main_v1_apply, val_main_v0_apply]
  show x0 _ = x0 (ix3 (0 : Fin 32) j l)
  refine congrArg x0 (funext fun a => Fin.ext ?_)
  match a with
  | ⟨0, _⟩ => rfl
  | ⟨1, _⟩ =>
    show (j.val * 512 + l.val) / 512 % 4096 = j.val
    have := j.isLt; have := l.isLt; omega
  | ⟨2, _⟩ =>
    show (j.val * 512 + l.val) % 512 = l.val
    have := j.isLt; have := l.isLt; omega

/-- The compared views, sliced, at (k, j, l) are the embedding at (k+1, j, l). -/
theorem compared_at (j : Fin 4096) (k : Fin 31) (l : Fin 512) :
    val_main_v2 (F := Ideal) x0 (ix3 k j l) = colE x0 j k.succ l := by
  rw [val_main_v2_apply]
  show x0 _ = x0 (ix3 k.succ j l)
  refine congrArg x0 (funext fun a => Fin.ext ?_)
  match a with
  | ⟨0, _⟩ =>
    show 1 + k.val = k.val + 1
    omega
  | ⟨1, _⟩ => rfl
  | ⟨2, _⟩ => rfl

/-- The distance stage at (k, j) is the squared distance from the anchor to view k+1 within sample j. -/
theorem dist_at (j : Fin 4096) (k : Fin 31) :
    val_main_v7 (F := Ideal) x0 (ix2 k j) = rDist (colE x0 j) k := by
  rw [val_main_v7_apply, val_main_cst_apply]
  unfold rDist
  refine congrArg (_ + ·) (Finset.sum_congr rfl fun l _ => ?_)
  have hi : idx_main_v7 (ix2 k j) l = ix3 k j l :=
    funext fun a => match a with | ⟨0, _⟩ => rfl | ⟨1, _⟩ => rfl | ⟨2, _⟩ => rfl
  rw [hi, val_main_v6_apply, val_main_v5_apply, anchor_at, compared_at]
  rfl

/-- The comparison stage at (k, j) is the bit "view k+1 of sample j has the anchor's label". -/
theorem same_at (j : Fin 4096) (k : Fin 31) :
    val_main_v13 (F := Ideal) x1 (ix2 k j) = rSame (colT x1 j) k := by
  rw [val_main_v13_apply, val_main_v8_apply, val_main_v12_apply, val_main_v11_apply, val_main_v10_apply,
    val_main_v9_apply]
  have h8 : idx_main_v8 (ix2 k j) = ix2 k.succ j :=
    funext fun a => Fin.ext (by
      match a with
      | ⟨0, _⟩ =>
        show 1 + k.val = k.val + 1
        omega
      | ⟨1, _⟩ => rfl)
  have h9 : idx_main_v9 (idx_main_v10 (idx_main_v11 (idx_main_v12 (ix2 k j)))) = ix2 (0 : Fin 32) j :=
    funext fun a => Fin.ext (by
      match a with
      | ⟨0, _⟩ => rfl
      | ⟨1, _⟩ =>
        show j.val % 4096 = j.val
        have := j.isLt; omega)
  rw [h8, h9]
  rfl

end

/-! ## A reduction over the compared views, at one sample -/

/-- The 31 × 4096 shape with its leading axis dropped is the row of 4096. -/
theorem redViews : S31x4096.Reduces [0] S4096 := by decide

/-- Sample `j` with view `k` put back on the leading axis is (k, j). -/
theorem lift_views (j : Fin 4096) (k : Fin (S31x4096.size 0)) :
    redViews.lift (ix1 j) k = ix2 (⟨k.val, k.isLt⟩ : Fin 31) j := by
  funext c; apply Fin.ext
  fin_cases c <;> rfl

/-- A reduction over the compared views with a commutative, associative body is, at sample `j`, the fold of the
    body over the views of the operand at (k, j), from the initial value. -/
theorem reduce_views_at {α : Type} (f : α → α → α) [Std.Commutative f] [Std.Associative f] (y : S31x4096.Idx → α)
    (c : S_.Idx → α) (j : Fin 4096) :
    Host.reduce f y c reducesTo_S31x4096_S4096_d0 h_S_ (ix1 j)
      = (Finset.univ : Finset (Fin 31)).fold f (c (Shape.Idx.first h_S_)) (fun k => y (ix2 k j)) := by
  rw [Host.reduce_eq_fold_single f y c reducesTo_S31x4096_S4096_d0 redViews h_S_]
  have hf : (y ∘ redViews.lift (ix1 j)) = fun k : Fin 31 => y (ix2 k j) :=
    funext fun k => congrArg y (lift_views j k)
  exact congrArg (fun g => Finset.fold f (c (Shape.Idx.first h_S_)) g (Finset.univ : Finset (Fin 31))) hf

end Cert.Safeness.Ref
-- ==== Proof.RefReadSample.lean ====
/-
  The reference program's per-sample stages, read at one sample.

  With the distance and the same-label bit of each compared view in hand, every later stage of the
  reference, read at sample `j`, is the corresponding per-sample function of that sample's own
  column of embeddings and labels. The three integer sums and the maximum over the 31 compared
  views are folds over the views; the two float sums over the views are the zero constant plus a
  sum over the views; the margin, broadcast back over the views, is read at its sample; and the
  remaining stages (the comparisons with zero, the selects, the conversions of a count or a bit
  to a float, the quotients and the final product) act on one element at a time. No arithmetic
  is done here: each stage is matched with the per-sample function that spells the same
  operations.
-/
import proofs.«154734_j91233695301874_2_alg».proof.Proof.RefReadViews

noncomputable section

open scoped BigOperators

namespace Cert.Safeness.Ref

open Cert.ReferenceIdeal Cert.ReferenceIdeal.Gen Cert.ReferenceIdeal.ReadP Idealize.ShloMosaic Idealize.ShloMosaic.ValueIdx

variable (x0 : (⟨S32x4096x512, .f32⟩ : BufTy).Contents (Elt Ideal)) (x1 : (⟨S32x4096, .i32⟩ : BufTy).Contents (Elt Ideal))

/-! ## The counts of same-label and other-label views -/

theorem nSameInt_at (j : Fin 4096) : val_main_v16 (F := Ideal) x1 (ix1 j) = rNSameInt (colT x1 j) := by
  unfold val_main_v16
  rw [reduce_views_at]
  have hf : (fun k : Fin 31 => val_main_v15 (F := Ideal) x1 (ix2 k j)) = fun k => (rSame (colT x1 j) k).setWidth 32 :=
    funext fun k => by rw [val_main_v15_apply, same_at]
  rw [hf]
  rfl

theorem nSame_at (j : Fin 4096) : val_main_v17 (F := Ideal) x1 (ix1 j) = rNSame (colT x1 j) := by
  rw [val_main_v17_apply, nSameInt_at]
  rfl

theorem nDiffInt_at (j : Fin 4096) : val_main_v19 (F := Ideal) x1 (ix1 j) = rNDiffInt (colT x1 j) := by
  unfold val_main_v19
  rw [reduce_views_at]
  have hf : (fun k : Fin 31 => val_main_v18 (F := Ideal) x1 (ix2 k j)) = fun k => (~~~(rSame (colT x1 j) k)).setWidth 32 :=
    funext fun k => by rw [val_main_v18_apply, val_main_v14_apply, same_at]
  rw [hf]
  rfl

theorem nDiff_at (j : Fin 4096) : val_main_v20 (F := Ideal) x1 (ix1 j) = rNDiff (colT x1 j) := by
  rw [val_main_v20_apply, nDiffInt_at]
  rfl

/-- "Some view shares the label", as the reference computes it for the margin. -/
theorem hasSame_at (j : Fin 4096) : val_main_v24 (F := Ideal) x1 (ix1 j) = rHasSame (colT x1 j) := by
  rw [val_main_v24_apply, nSame_at, val_main_v23_apply, val_main_cst_3_apply]
  rfl

/-- The same bit, as the reference computes it again for the indicator. -/
theorem hasSame_at' (j : Fin 4096) : val_main_v41 (F := Ideal) x1 (ix1 j) = rHasSame (colT x1 j) := by
  rw [val_main_v41_apply, nSame_at, val_main_v40_apply, val_main_cst_12_apply]
  rfl

/-! ## The largest same-label distance, the margin, the same-label sum -/

theorem sameMax_at (j : Fin 4096) : val_main_v22 (F := Ideal) x0 x1 (ix1 j) = rSameMax (colE x0 j) (colT x1 j) := by
  unfold val_main_v22
  rw [reduce_views_at]
  have hf : (fun k : Fin 31 => val_main_v21 (F := Ideal) x0 x1 (ix2 k j))
      = fun k => Scalar.select (rSame (colT x1 j) k) (rDist (colE x0 j) k) (Ideal.ofBits .f32 0xFF800000#32) :=
    funext fun k => by
      rw [val_main_v21_apply, same_at, dist_at, val_main_call0_v1_apply, val_main_call0_v0_apply, val_main_cst_1_apply]
      rfl
  rw [hf]
  rfl

theorem alpha_at (j : Fin 4096) : val_main_v27 (F := Ideal) x0 x1 (ix1 j) = rAlpha (colE x0 j) (colT x1 j) := by
  rw [val_main_v27_apply, hasSame_at, val_main_v26_apply, sameMax_at, val_main_v25_apply, val_main_cst_4_apply,
    val_main_call1_v1_apply, val_main_call1_v0_apply, val_main_cst_5_apply]
  rfl

theorem sameSum_at (j : Fin 4096) : val_main_v29 (F := Ideal) x0 x1 (ix1 j) = rSameSum (colE x0 j) (colT x1 j) := by
  rw [val_main_v29_apply, val_main_cst_7_apply]
  unfold rSameSum
  refine congrArg (_ + ·) (Finset.sum_congr rfl fun k _ => ?_)
  have hi : idx_main_v29 (ix1 j) k = ix2 k j := funext fun a => match a with | ⟨0, _⟩ => rfl | ⟨1, _⟩ => rfl
  rw [hi, val_main_v28_apply, same_at, dist_at, val_main_call2_v1_apply, val_main_call2_v0_apply, val_main_cst_6_apply]
  rfl

/-! ## The views under the margin -/

theorem shifted_at (j : Fin 4096) (k : Fin 31) :
    val_main_v32 (F := Ideal) x0 x1 (ix2 k j) = rShifted (colE x0 j) (colT x1 j) k := by
  rw [val_main_v32_apply, dist_at, val_main_v31_apply, val_main_v30_apply]
  have hi : idx_main_v30 (idx_main_v31 (ix2 k j)) = ix1 j := funext fun a => match a with | ⟨0, _⟩ => rfl
  rw [hi, alpha_at]
  rfl

theorem under_at (j : Fin 4096) (k : Fin 31) :
    val_main_v35 (F := Ideal) x0 x1 (ix2 k j) = rUnder (colE x0 j) (colT x1 j) k := by
  rw [val_main_v35_apply, val_main_v14_apply, same_at, val_main_v34_apply, shifted_at, val_main_v33_apply,
    val_main_cst_8_apply]
  rfl

theorem underSum_at (j : Fin 4096) : val_main_v37 (F := Ideal) x0 x1 (ix1 j) = rUnderSum (colE x0 j) (colT x1 j) := by
  rw [val_main_v37_apply, val_main_cst_10_apply]
  unfold rUnderSum
  refine congrArg (_ + ·) (Finset.sum_congr rfl fun k _ => ?_)
  have hi : idx_main_v37 (ix1 j) k = ix2 k j := funext fun a => match a with | ⟨0, _⟩ => rfl | ⟨1, _⟩ => rfl
  rw [hi, val_main_v36_apply, under_at, shifted_at, val_main_call3_v1_apply, val_main_call3_v0_apply, val_main_cst_9_apply]
  rfl

theorem nUnderInt_at (j : Fin 4096) : val_main_v39 (F := Ideal) x0 x1 (ix1 j) = rNUnderInt (colE x0 j) (colT x1 j) := by
  unfold val_main_v39
  rw [reduce_views_at]
  have hf : (fun k : Fin 31 => val_main_v38 (F := Ideal) x0 x1 (ix2 k j))
      = fun k => (rUnder (colE x0 j) (colT x1 j) k).setWidth 32 :=
    funext fun k => by rw [val_main_v38_apply, under_at]
  rw [hf]
  rfl

/-! ## The indicator, the coefficient, the loss -/

theorem incl_at (j : Fin 4096) : val_main_v45 (F := Ideal) x0 x1 (ix1 j) = rIncl (colE x0 j) (colT x1 j) := by
  rw [val_main_v45_apply, val_main_v44_apply, hasSame_at', val_main_v43_apply, nUnderInt_at, val_main_v42_apply,
    val_main_c_13_apply]
  rfl

theorem coef_at (j : Fin 4096) : val_main_v47 (F := Ideal) x1 (ix1 j) = rCoef (colT x1 j) := by
  rw [val_main_v47_apply, nSame_at, val_main_v46_apply, val_main_cst_14_apply]
  rfl

theorem loss_at (j : Fin 4096) : val_main_v57 (F := Ideal) x0 x1 (ix1 j) = rLoss (colE x0 j) (colT x1 j) := by
  rw [val_main_v57_apply, val_main_v54_apply, val_main_v50_apply, sameSum_at, val_main_v49_apply, nSame_at,
    val_main_v48_apply, val_main_cst_15_apply, val_main_v53_apply, underSum_at, val_main_v52_apply, nDiff_at,
    val_main_v51_apply, val_main_cst_16_apply, val_main_v56_apply, val_main_v55_apply, val_main_cst_17_apply, coef_at]
  rfl

end Cert.Safeness.Ref
-- ==== Proof.RefRead.lean ====
/-
  The reference program's two results, as quotients of sums over the samples.

  The reference's last stages multiply each sample's loss, and each sample's safety coefficient,
  by the sample's indicator, sum the products and the indicators over the 4096 samples (each sum
  started from the zero constant), and divide. Each summand, read at sample `j`, is a per-sample
  function of that sample's own column of embeddings and labels; so the first result is

      (zero + Σ_j loss_j · indicator_j) / (zero + Σ_j indicator_j)

  and the second the same with the coefficient in place of the loss — the quotient being the
  extended reals' division with its conventions, and the sums running over `j : Fin 4096`.
  The one step beyond matching stages is to carry a sum over the rank-one index set of 4096
  entries to a sum over `Fin 4096` along the evident bijection.
-/
import proofs.«154734_j91233695301874_2_alg».proof.Proof.RefReadSample

noncomputable section

open scoped BigOperators

namespace Cert.Safeness.Ref

open Cert.ReferenceIdeal Cert.ReferenceIdeal.Gen Cert.ReferenceIdeal.ReadP Idealize.ShloMosaic Idealize.ShloMosaic.ValueIdx

/-- A rank-one index over 4096 entries is its coordinate. -/
def sampleEquiv : S4096.Idx ≃ Fin 4096 where
  toFun i := i 0
  invFun j := ix1 j
  left_inv i := (eq_ix1 i).symm
  right_inv _ := rfl

/-- A sum over the samples' index set is the sum over `j : Fin 4096` of the entry at sample `j`. -/
theorem sum_samples (f : S4096.Idx → EReal) : ∑ i, f i = ∑ j : Fin 4096, f (ix1 j) := by
  rw [← Equiv.sum_comp sampleEquiv.symm f]
  rfl

variable (x0 : (⟨S32x4096x512, .f32⟩ : BufTy).Contents (Elt Ideal)) (x1 : (⟨S32x4096, .i32⟩ : BufTy).Contents (Elt Ideal))

/-- The sum of the indicators. -/
theorem inclSum_at (i : S_.Idx) :
    val_main_v58 (F := Ideal) x0 x1 i
      = Ideal.ofBits .f32 0x00000000#32 + ∑ j : Fin 4096, rIncl (colE x0 j) (colT x1 j) := by
  rw [val_main_v58_apply, val_main_cst_18_apply, sum_samples]
  refine congrArg (_ + ·) (Finset.sum_congr rfl fun j _ => ?_)
  exact incl_at x0 x1 j

/-- The sum of the masked losses. -/
theorem lossSum_at (i : S_.Idx) :
    val_main_v60 (F := Ideal) x0 x1 i
      = Ideal.ofBits .f32 0x00000000#32 + ∑ j : Fin 4096, rLossIncl (colE x0 j) (colT x1 j) := by
  rw [val_main_v60_apply, val_main_cst_19_apply, sum_samples]
  refine congrArg (_ + ·) (Finset.sum_congr rfl fun j _ => ?_)
  rw [val_main_v59_apply, loss_at, incl_at]
  rfl

/-- The sum of the masked coefficients. -/
theorem coefSum_at (i : S_.Idx) :
    val_main_v63 (F := Ideal) x0 x1 i
      = Ideal.ofBits .f32 0x00000000#32 + ∑ j : Fin 4096, rCoefIncl (colE x0 j) (colT x1 j) := by
  rw [val_main_v63_apply, val_main_cst_20_apply, sum_samples]
  refine congrArg (_ + ·) (Finset.sum_congr rfl fun j _ => ?_)
  rw [val_main_v62_apply, coef_at, incl_at]
  rfl

/-- The reference's first result: the masked losses' sum over the indicators' sum. -/
theorem ref_v61 :
    val_main_v61 (F := Ideal) x0 x1
      = fun _ => Ideal.div (Ideal.ofBits .f32 0x00000000#32 + ∑ j : Fin 4096, rLossIncl (colE x0 j) (colT x1 j))
          (Ideal.ofBits .f32 0x00000000#32 + ∑ j : Fin 4096, rIncl (colE x0 j) (colT x1 j)) := by
  funext i
  rw [val_main_v61_apply, lossSum_at, inclSum_at]
  rfl

/-- The reference's second result: the masked coefficients' sum over the indicators' sum. -/
theorem ref_v64 :
    val_main_v64 (F := Ideal) x0 x1
      = fun _ => Ideal.div (Ideal.ofBits .f32 0x00000000#32 + ∑ j : Fin 4096, rCoefIncl (colE x0 j) (colT x1 j))
          (Ideal.ofBits .f32 0x00000000#32 + ∑ j : Fin 4096, rIncl (colE x0 j) (colT x1 j)) := by
  funext i
  rw [val_main_v64_apply, coefSum_at, inclSum_at]
  rfl

end Cert.Safeness.Ref
-- ==== Proof.lean ====
/-
  The margin loss of 4096 samples: the kernel and its reference agree on the extended reals.

  Inputs: 32 views of 4096 samples of 512 floats, and a label per view and sample. Per sample both
  programs form the squared distances from view 0 to the other 31 views and the bits "same label as
  view 0", and from them a loss, a safety coefficient and an indicator (SampleFold.lean says how the
  kernel's body accumulates them; RefSample.lean how the reference reduces them; Bridge.lean that the two
  are the same numbers). The two results are the indicator-masked loss and coefficient, summed over
  the samples and divided by the sum of the indicators.

  The kernel works on 16 blocks of 256 samples; each block of its three output arrays holds, at every
  sample, the per-sample value of that sample's own column (BlockTerm.lean, BlockRead.lean), so the
  arrays hold the per-sample values of all 4096 columns, and the lines after the call sum and divide
  them (KernelRun*.lean). The reference's two results are the same quotients of sums (RefRead*.lean).
  So from memories that agree on the two arguments both programs end with the same two numbers.

  The kernel's idealization rewrote no operation, so there is nothing to preserve beyond the text.
  No step uses that the inputs are finite.
-/
import proofs.«154734_j91233695301874_2_alg».proof.Defs
import proofs.«154734_j91233695301874_2_alg».proof.Proof.Gen.Kernel
import proofs.«154734_j91233695301874_2_alg».proof.Proof.Gen.Kernel.Frame
import proofs.«154734_j91233695301874_2_alg».proof.Proof.Gen.KernelIdeal
import proofs.«154734_j91233695301874_2_alg».proof.Proof.Gen.KernelIdeal.Frame
import proofs.«154734_j91233695301874_2_alg».proof.Proof.Gen.ReferenceIdeal
import proofs.«154734_j91233695301874_2_alg».proof.Proof.Gen.Pre_finite_inputs
import proofs.«154734_j91233695301874_2_alg».proof.Proof.RefRunP
import proofs.«154734_j91233695301874_2_alg».proof.Proof.RefReadP
import proofs.«154734_j91233695301874_2_alg».proof.Proof.Bridge
import proofs.«154734_j91233695301874_2_alg».proof.Proof.KernelRun
import proofs.«154734_j91233695301874_2_alg».proof.Proof.RefRead
import Idealize.ShloMosaic.Adequacy
import Idealize.ShloMosaic.Init

noncomputable section

namespace Cert.Proof

open Idealize.ShloMosaic Idealize.SL.Sem Cert.Safeness

/-- The word-level kernel runs and leaves its arguments alone. -/
theorem frame_k [Cert.Kernel.Facts] [Cert.Pre_finite_inputs.Facts] : Cert.frame_Kernel := fun m ρ _ => Cert.Kernel.Gen.frame m ρ

/-- So does the kernel read at the extended reals. -/
theorem frame_ki [Cert.KernelIdeal.Facts] [Cert.Pre_finite_inputs.Facts] : Cert.frame_KernelIdeal := fun m ρ _ => Cert.KernelIdeal.Gen.frame m ρ

/-- And the reference: its run, the results forgotten. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => ⟨(h c).2.2.1, (h c).2.2.2⟩) (Cert.ReferenceIdeal.ValueP.run (F := Ideal) m ρ)

/-- Both programs end with the two quotients of sums, over the samples, of the per-sample loss and
    coefficient (masked) by the sum of the indicators: the kernel because each block holds its samples'
    values, the reference by its own reading, the per-sample values equal by Bridge.lean. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.Safeness.Run.kernel_run Ref.rLossIncl Ref.rCoefIncl Ref.rIncl
      (fun x0 x1 b => (out0_2_apply x0 x1 b).trans (lossIncl_eq _ _))
      (fun x0 x1 b => (out0_3_apply x0 x1 b).trans (coefIncl_eq _ _))
      (fun x0 x1 b => (out0_4_apply x0 x1 b).trans (incl_eq _ _)) m ρ, ?_⟩
  refine (θ_run Cert.ReferenceIdeal.defs _ _).mono (fun _ h c => ⟨(h c).1.trans ?_, (h c).2.1.trans ?_, (h c).2.2.1, (h c).2.2.2⟩)
    (Cert.ReferenceIdeal.ValueP.run (F := Ideal) m' ρ')
  · rw [Cert.ReferenceIdeal.ReadP.val_main_v61_eq, Cert.Safeness.Ref.ref_v61, (hagree c).1, (hagree c).2]
    rfl
  · rw [Cert.ReferenceIdeal.ReadP.val_main_v64_eq, Cert.Safeness.Ref.ref_v64, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
